-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S8192x8192 .f32) (main_arg3 : FVec F S128x128 .f32) (main_arg4 : FVec F S128x128 .f32) (main_arg5 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S1024x128 : Shape := ⟨2, ![1024, 128]⟩
abbrev S512x128 : Shape := ⟨2, ![512, 128]⟩
abbrev S1024x512 : Shape := ⟨2, ![1024, 512]⟩
abbrev S128x512 : Shape := ⟨2, ![128, 512]⟩

abbrev nBuf : Space → Nat
  | .hbm => 13
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S8192x128, .f32⟩
  | .hbm, ⟨8, _⟩ => ⟨S128x128, .f32⟩
  | .hbm, ⟨9, _⟩ => ⟨S8192x128, .f32⟩
  | .hbm, ⟨10, _⟩ => ⟨S128x128, .f32⟩
  | .hbm, ⟨11, _⟩ => ⟨S8192x128, .f32⟩
  | .hbm, ⟨12, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S1024x512_S1024x512_0_0 : ∀ a, (![0, 0] : Fin 2 → Nat) a + S1024x512.size a ≤ S1024x512.size a
  h_S1024x512 : 0 < S1024x512.numel
  dot_S8192x128_S128x128_S8192x128_1_0_0_1_n_n_wf : DotDims.WF S8192x128 S128x128 S8192x128 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x8192.size a
  hwx0_5 : ∀ i : grid0.Coords, EltTy.bits .f32 = 32 ∨ (Rect.block (s := S8192x8192) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128x8192 : Shape := ⟨2, ![128, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S8192x128, .f32⟩
  | .hbm, ⟨8, _⟩ => ⟨S128x128, .f32⟩
  | .hbm, ⟨9, _⟩ => ⟨S8192x128, .f32⟩
  | .hbm, ⟨10, _⟩ => ⟨S128x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S128x128_S128x128_1_0 : S128x128.Transposes [1, 0] S128x128
  transposes_S8192x128_S128x8192_1_0 : S8192x128.Transposes [1, 0] S128x8192
  bcast_S_S8192x8192 : S_.BroadcastsInDim S8192x8192 (![] : Fin 0 → Fin S8192x8192.rank)
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Runs.lean ====
/-
  What the three control cases of the fused kernel's body share: the two branch conditions as functions of the
  grid point, in closed form. The grid is 8 query tiles by 16 key tiles, the key tile the fast axis, so point t
  is key tile t mod 16: the first condition (reset the accumulator to the self term) holds at key tile 0, the
  second (store the accumulator to the output block) at key tile 15.
-/
import proofs.«117063_j8409545965928_1_alg».proof.Proof.Gen.Kernel.Launch
import proofs.«117063_j8409545965928_1_alg».proof.Proof.Gen.Kernel.Skeleton
import proofs.«117063_j8409545965928_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

/-- The first branch condition: the key tile is the first. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch condition: the key tile is the last. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

end Cert.Kernel.Frm

end
-- ==== Proof.K.RunB.lean ====
/-
  The body of the fused kernel at a middle key tile (neither the first nor the last): neither branch is taken. The
  body loads the six input blocks and the accumulator, and stores the accumulator once; the output block's buffer is
  not touched. The run finds the list of pieces the accumulator's buffer ends with.
-/
import proofs.«117063_j8409545965928_1_alg».proof.Proof.K.Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

set_option maxHeartbeats 4000000 in
/-- At a middle key tile, on whole staging buffers: the inputs at their blocks, the output's buffer at any contents
    (handed back untouched), the accumulator at what the point before left: the body runs, and ends with the
    accumulator's buffer written with the pieces found here. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, fun xi6 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frm

end
-- ==== Proof.K.RunA.lean ====
/-
  The body of the fused kernel at the first key tile: the first branch is taken, the second is not. The body copies
  the self-term block into the accumulator, then loads the input blocks and the accumulator and stores the
  accumulator again; the output block's buffer is not touched. The run finds the pieces the accumulator ends with.
-/
import proofs.«117063_j8409545965928_1_alg».proof.Proof.K.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

set_option maxHeartbeats 4000000 in
/-- At the first key tile, on whole staging buffers: the inputs at their blocks, the output's buffer at any contents
    (handed back untouched), the accumulator at anything: the body runs, and ends with the accumulator's buffer
    written with the pieces found here. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, fun xi6 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frm

end
-- ==== Proof.K.RunC.lean ====
/-
  The body of the fused kernel at the last key tile: the first branch is not taken, the second is. The body loads the
  input blocks and the accumulator, stores the accumulator, then loads it again and stores it into the output block's
  buffer. The run finds the pieces the output's buffer and the accumulator's end with.
-/
import proofs.«117063_j8409545965928_1_alg».proof.Proof.K.RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

set_option maxHeartbeats 4000000 in
/-- At the last key tile, on whole staging buffers: the inputs at their blocks, the output's buffer at anything, the
    accumulator at what the point before left: the body runs, and ends with the output's buffer and the
    accumulator's written with the pieces found here. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Frm

end
-- ==== Proof.K.Setup.lean ====
/-
  The region of the fused kernel as @main reaches it, and where its windows stand at each grid point.

  @main first forms the three projections h3, h4, hf by host operations; the region then finds every TensorCore
  buffer at the contents those operations leave (`V`), the six arguments untouched. Window w's block at point t is
  read off its array there (`iblk`): the query tile's rows of h3 (window 0) and of hf (window 3, the self term), the
  key tile's rows of h4 (window 1) and of hf (window 2), and the (query tile, key tile) blocks of adj and negadj
  (windows 4, 5). Windows 2 and 3 read the same array, hf. Every input's staging buffer holds its block at every
  point, whether the pipeline fetched it there or kept it from the point before (windows 0 and 3 move only when
  the query tile does). The output window (6) is idle, and not written back, except at the last key tile.
-/
import proofs.«117063_j8409545965928_1_alg».proof.Proof.K.Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

variable (m : (ℓ : Loc nD τ sig) → Buf (Elt F) ℓ) (ρ : Dev nD → PrngReg)

/-! ## @main up to the region -/

/-- Core `c`'s TensorCore buffers when the region is entered: after the host operations that form h3, h4, hf. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The staging memrefs at a point, and the accumulator -/

/-- One staging buffer of the output window, through which its contents are stated. -/
abbrev VO0_6 : View sig .tc .vmem S1024x128 .f32 := (Memref.whole cc0_stg6_0 : Memref sig .tc .vmem S1024x128 .f32).view
abbrev ms0_0 (t : Fin cfg0.N) : Memref sig .tc .vmem S1024x128 .f32 := win0_0.stage (cfg0.slots t 0)
abbrev hs0_0 (t : Fin cfg0.N) : (ms0_0 t).IsWhole := Gen.hstage0_0 ((cfg0.slots t 0).cast Gen.nbuf0_0)
abbrev ms0_1 (t : Fin cfg0.N) : Memref sig .tc .vmem S512x128 .f32 := win0_1.stage (cfg0.slots t 1)
abbrev hs0_1 (t : Fin cfg0.N) : (ms0_1 t).IsWhole := Gen.hstage0_1 ((cfg0.slots t 1).cast Gen.nbuf0_1)
abbrev ms0_2 (t : Fin cfg0.N) : Memref sig .tc .vmem S512x128 .f32 := win0_2.stage (cfg0.slots t 2)
abbrev hs0_2 (t : Fin cfg0.N) : (ms0_2 t).IsWhole := Gen.hstage0_2 ((cfg0.slots t 2).cast Gen.nbuf0_2)
abbrev ms0_3 (t : Fin cfg0.N) : Memref sig .tc .vmem S1024x128 .f32 := win0_3.stage (cfg0.slots t 3)
abbrev hs0_3 (t : Fin cfg0.N) : (ms0_3 t).IsWhole := Gen.hstage0_3 ((cfg0.slots t 3).cast Gen.nbuf0_3)
abbrev ms0_4 (t : Fin cfg0.N) : Memref sig .tc .vmem S1024x512 .f32 := win0_4.stage (cfg0.slots t 4)
abbrev hs0_4 (t : Fin cfg0.N) : (ms0_4 t).IsWhole := Gen.hstage0_4 ((cfg0.slots t 4).cast Gen.nbuf0_4)
abbrev ms0_5 (t : Fin cfg0.N) : Memref sig .tc .vmem S1024x512 .f32 := win0_5.stage (cfg0.slots t 5)
abbrev hs0_5 (t : Fin cfg0.N) : (ms0_5 t).IsWhole := Gen.hstage0_5 ((cfg0.slots t 5).cast Gen.nbuf0_5)
abbrev ms0_6 (t : Fin cfg0.N) : Memref sig .tc .vmem S1024x128 .f32 := win0_6.stage (cfg0.slots t 6)
abbrev hs0_6 (t : Fin cfg0.N) : (ms0_6 t).IsWhole := Gen.hstage0_6 ((cfg0.slots t 6).cast Gen.nbuf0_6)
/-- The accumulator: a whole scoped buffer of the kernel's own. -/
abbrev scM0_0 : Memref sig .tc .vmem S1024x128 .f32 := Memref.whole cc0_scratch0
/-- The accumulator as a view: what it holds is stated through it. -/
abbrev VS0_0 : View sig .tc .vmem S1024x128 .f32 := scM0_0.view

/-- The scoped buffers that are no staging buffer: the accumulator, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Frm

end
-- ==== Proof.K.Frame.lean ====
/-
  The frame of the fused kernel's region: what each control case leaves in the accumulator and in the output block's
  buffer, the accumulation point by point, the proof data of the pipeline, and the body obligation at every grid point.

  The accumulator is carried between points: at the first key tile of a query tile it is reset to the self-term
  block and the first key tile's contribution added; at every later key tile that tile's contribution is added to what
  the point before left; at the last key tile it is also copied to the output block, which only then is written back.
-/
import proofs.«117063_j8409545965928_1_alg».proof.Proof.K.RunC
import proofs.«117063_j8409545965928_1_alg».proof.Proof.K.Setup

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

variable (m : (ℓ : Loc nD τ sig) → Buf (Elt F) ℓ) (ρ : Dev nD → PrngReg)

/-- Case A stores nothing into the output block's buffer (the window is idle at its points and not written back
    there): no pieces, a placeholder nothing consults. -/
def out0_A_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- Case A's pieces for the accumulator tile it, so they cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S1024x128.size (by sl_kernel_rfl) y

/-- What case A leaves in the accumulator: its pieces read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- Case B stores nothing into the output block's buffer (the window is idle at its points and not written back
    there): no pieces, a placeholder nothing consults. -/
def out0_B_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- Case B's pieces for the accumulator tile it, so they cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case B leaves in the accumulator: its pieces read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Case C's pieces for the output block tile it, so they cover it. -/
theorem cover0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What case C leaves in the output block's staging buffer: its pieces read back. -/
def out0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- Case C's pieces for the accumulator tile it, so they cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the buffers hold after each point -/

/-- THE ACCUMULATION. What the output block's staging buffer and the accumulator hold after the body at position `n`
    (a pair: the output's buffer, then the accumulator): the case the closed forms select at `n`, run at the point's
    memrefs and input blocks, the accumulator at what the point before left. -/
def outsAt0 (c : Dev nD) : (n : ℕ) → n < cfg0.N → Vec F S1024x128 .f32 × Vec F S1024x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything (the scoped rest as the
    launch hands it over); afterwards the accumulator at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`: the arrays as the region finds them; after the body at point `t` each
    input's buffer at its block and the output's at the accumulation's first component; the invariant the
    accumulator's contents; nothing owed. The two windows that read hf each hold half of that array's share; every
    other input holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold out0_C_6 sout0_C_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.K.Split.lean ====
/-
  How the arrays behind the fused kernel's windows are dealt to the windows at the region's entry. Six distinct arrays
  stand behind the seven windows: h3, h4, hf, adj, negadj and the result. hf is read through two windows (the key
  tile's rows, and the query tile's rows for the self term); its full share is split into its two halves, one per
  window. Every other window takes its array whole.
-/
import proofs.«117063_j8409545965928_1_alg».proof.Proof.K.Frame

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

variable (m : (ℓ : Loc nD τ sig) → Buf (Elt F) ℓ) (ρ : Dev nD → PrngReg)

/-- The distinct buffers behind the seven windows' arrays, listed: h3, h4, hf, adj, negadj, the result. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v1) ↦{fullShare} W main_v1) ∗ (((c.tc : Thread nD τ).loc main_v3) ↦{fullShare} W main_v3) ∗ (((c.tc : Thread nD τ).loc main_v5) ↦{fullShare} W main_v5) ∗ (((c.tc : Thread nD τ).loc main_arg1) ↦{fullShare} W main_arg1) ∗ (((c.tc : Thread nD τ).loc main_arg2) ↦{fullShare} W main_arg2) ∗ (((c.tc : Thread nD τ).loc main_v6) ↦{fullShare} W main_v6)) := by
  unfold Pipeline.arrBufs
  exact bigSep_eq_bigSepL_of_eq [main_v1, main_v3, main_v5, main_arg1, main_arg2, main_v6] (by decide) (by decide) _

/-- The buffers behind the windows' arrays, each whole at the region-entry contents, give every window its array at
    its share: hf's full share as its left half (the key rows' window) and its right half (the self term's). -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have e0 : (((cfg0.win 0).arr.view.loc (c.tc : Thread nD τ)) ↦[(cfg0.win 0).arr.view.set]{(dats m 0 c).share 0} (dats m 0 c).arrAt 0 0 : sProp 𝕄)
      = (((c.tc : Thread nD τ).loc main_v1) ↦{fullShare} V m c main_v1) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c.tc : Thread nD τ).loc main_v3) ↦{fullShare} V m c main_v3) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c.tc : Thread nD τ).loc main_v5) ↦{fullShare.left} V m c main_v5) := by
    rw [(arr_whole0 2).set_eq_univ]; rfl
  have e3 : (((cfg0.win 3).arr.view.loc (c.tc : Thread nD τ)) ↦[(cfg0.win 3).arr.view.set]{(dats m 0 c).share 3} (dats m 0 c).arrAt 3 0 : sProp 𝕄)
      = (((c.tc : Thread nD τ).loc main_v5) ↦{fullShare.right} V m c main_v5) := by
    rw [(arr_whole0 3).set_eq_univ]; rfl
  have e4 : (((cfg0.win 4).arr.view.loc (c.tc : Thread nD τ)) ↦[(cfg0.win 4).arr.view.set]{(dats m 0 c).share 4} (dats m 0 c).arrAt 4 0 : sProp 𝕄)
      = (((c.tc : Thread nD τ).loc main_arg1) ↦{fullShare} V m c main_arg1) := by
    rw [(arr_whole0 4).set_eq_univ]; rfl
  have e5 : (((cfg0.win 5).arr.view.loc (c.tc : Thread nD τ)) ↦[(cfg0.win 5).arr.view.set]{(dats m 0 c).share 5} (dats m 0 c).arrAt 5 0 : sProp 𝕄)
      = (((c.tc : Thread nD τ).loc main_arg2) ↦{fullShare} V m c main_arg2) := by
    rw [(arr_whole0 5).set_eq_univ]; rfl
  have e6 : (((cfg0.win 6).arr.view.loc (c.tc : Thread nD τ)) ↦[(cfg0.win 6).arr.view.set]{(dats m 0 c).share 6} (dats m 0 c).arrAt 6 0 : sProp 𝕄)
      = (((c.tc : Thread nD τ).loc main_v6) ↦{fullShare} V m c main_v6) := by
    rw [(arr_whole0 6).set_eq_univ]; rfl
  unfold Dat.arrays
  rw [arrBufs0_eq, bigSep_W0, e0, e1, e2, e3, e4, e5, e6]
  iintro ⟨H1, H3, H5, Ha1, Ha2, H6⟩
  ihave H5' := (pointsTo_share (PosShare.mem_left_op_right fullShare)).1 $$ H5
  icases H5' with ⟨H5l, H5r⟩
  isplitl [H1]; · iexact H1
  isplitl [H3]; · iexact H3
  isplitl [H5l]; · iexact H5l
  isplitl [H5r]; · iexact H5r
  isplitl [Ha1]; · iexact Ha1
  isplitl [Ha2]; · iexact Ha2
  iexact H6

end Cert.Kernel.Frm

end
-- ==== Proof.K.Launch.lean ====
/-
  The run of the program around the fused kernel's region. @main forms h3, h4, hf by host operations and enters the
  region; the pipeline visits the 128 grid points, the body obligation holding at each; at the end every window's
  array holds what the write-backs left (only the result array is written: one block per query tile, at its last key
  tile), and every other unscoped buffer, the arguments h1, W1, W2, Wf among them, is as the region found it.
-/
import proofs.«117063_j8409545965928_1_alg».proof.Proof.K.Split

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

variable (m : (ℓ : Loc nD τ sig) → Buf (Elt F) ℓ) (ρ : Dev nD → PrngReg)

/-- What the launch hands the region (the scoped rest) is the invariant before the first point. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scoped rest back: the accumulator's named contents are forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest0_owns]
  iintro HS0
  isplitr; · iempintro
  iexists _; iexact HS0

set_option backward.isDefEq.respectTransparency.types false in
/-- Every weakly fair execution of @main on the TensorCores terminates, and every final state has every window's array
    at what the library computes from the proof data and every other unscoped buffer as the region found it. -/
theorem run_main : θ_run defs (onTc (τ := τ) (main (F := F))) (s₀ m ρ)
    (fun r => ∀ c : Dev nD, (∀ w, r.2.mem (((cfg0).spec w).arr.view.loc (c.tc : Thread nD τ)) = (dats m 0 c).arrAt w (cfg0).N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

end Cert.Kernel.Frm

end
-- ==== Proof.K.Claim.lean ====
/-
  The frame of the program around the fused kernel: it runs to the end, nothing faults, and its six argument arrays
  end as they began. adj and negadj are input windows' arrays, which the pipeline never writes; h1, W1, W2 and Wf are
  read by the host operations before the region only, and no window stages them.
-/
import proofs.«117063_j8409545965928_1_alg».proof.Proof.K.Launch
import Idealize.ShloMosaic.Lib.Pipeline.Value

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Facts₀ Cert.Kernel.Facts

variable (m : (ℓ : Loc nD τ sig) → Buf (Elt F) ℓ) (ρ : Dev nD → PrngReg)

/-- The run, with the result array named and the six arguments read back to their launch contents. -/
theorem run_args : θ_run defs (onTc (τ := τ) (main (F := F))) ⟨m, fun _ => 0, ρ⟩ (fun r => ∀ c : Dev nD,
      r.2.mem ((c.tc : Thread nD τ).loc main_v6) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
    ((h c).2 main_arg0 (by decide)).trans (V_main_arg0 m c),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).2 main_arg3 (by decide)).trans (V_main_arg3 m c),
    ((h c).2 main_arg4 (by decide)).trans (V_main_arg4 m c),
    ((h c).2 main_arg5 (by decide)).trans (V_main_arg5 m c)⟩) (run_main m ρ)

/-- THE FRAME: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_args m ρ)

end Cert.Kernel.Frm

end
-- ==== Proof.KI.Runs.lean ====
/-
  What the three control cases of the fused kernel's body share: the two branch conditions as functions of the
  grid point, in closed form. The grid is 8 query tiles by 16 key tiles, the key tile the fast axis, so point t
  is key tile t mod 16: the first condition (reset the accumulator to the self term) holds at key tile 0, the
  second (store the accumulator to the output block) at key tile 15.
-/
import proofs.«117063_j8409545965928_1_alg».proof.Proof.Gen.KernelIdeal.Launch
import proofs.«117063_j8409545965928_1_alg».proof.Proof.Gen.KernelIdeal.Skeleton
import proofs.«117063_j8409545965928_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

/-- The first branch condition: the key tile is the first. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch condition: the key tile is the last. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

end Cert.KernelIdeal.Frm

end
-- ==== Proof.KI.RunB.lean ====
/-
  The body of the fused kernel at a middle key tile (neither the first nor the last): neither branch is taken. The
  body loads the six input blocks and the accumulator, and stores the accumulator once; the output block's buffer is
  not touched. The run finds the list of pieces the accumulator's buffer ends with.
-/
import proofs.«117063_j8409545965928_1_alg».proof.Proof.KI.Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

set_option maxHeartbeats 4000000 in
/-- At a middle key tile, on whole staging buffers: the inputs at their blocks, the output's buffer at any contents
    (handed back untouched), the accumulator at what the point before left: the body runs, and ends with the
    accumulator's buffer written with the pieces found here. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, fun xi6 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frm

end
-- ==== Proof.KI.RunA.lean ====
/-
  The body of the fused kernel at the first key tile: the first branch is taken, the second is not. The body copies
  the self-term block into the accumulator, then loads the input blocks and the accumulator and stores the
  accumulator again; the output block's buffer is not touched. The run finds the pieces the accumulator ends with.
-/
import proofs.«117063_j8409545965928_1_alg».proof.Proof.KI.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

set_option maxHeartbeats 4000000 in
/-- At the first key tile, on whole staging buffers: the inputs at their blocks, the output's buffer at any contents
    (handed back untouched), the accumulator at anything: the body runs, and ends with the accumulator's buffer
    written with the pieces found here. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, fun xi6 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frm

end
-- ==== Proof.KI.RunC.lean ====
/-
  The body of the fused kernel at the last key tile: the first branch is not taken, the second is. The body loads the
  input blocks and the accumulator, stores the accumulator, then loads it again and stores it into the output block's
  buffer. The run finds the pieces the output's buffer and the accumulator's end with.
-/
import proofs.«117063_j8409545965928_1_alg».proof.Proof.KI.RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

set_option maxHeartbeats 4000000 in
/-- At the last key tile, on whole staging buffers: the inputs at their blocks, the output's buffer at anything, the
    accumulator at what the point before left: the body runs, and ends with the output's buffer and the
    accumulator's written with the pieces found here. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Frm

end
-- ==== Proof.KI.Setup.lean ====
/-
  The region of the fused kernel as @main reaches it, and where its windows stand at each grid point.

  @main first forms the three projections h3, h4, hf by host operations; the region then finds every TensorCore
  buffer at the contents those operations leave (`V`), the six arguments untouched. Window w's block at point t is
  read off its array there (`iblk`): the query tile's rows of h3 (window 0) and of hf (window 3, the self term), the
  key tile's rows of h4 (window 1) and of hf (window 2), and the (query tile, key tile) blocks of adj and negadj
  (windows 4, 5). Windows 2 and 3 read the same array, hf. Every input's staging buffer holds its block at every
  point, whether the pipeline fetched it there or kept it from the point before (windows 0 and 3 move only when
  the query tile does). The output window (6) is idle, and not written back, except at the last key tile.
-/
import proofs.«117063_j8409545965928_1_alg».proof.Proof.KI.Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

variable (m : (ℓ : Loc nD τ sig) → Buf (Elt F) ℓ) (ρ : Dev nD → PrngReg)

/-! ## @main up to the region -/

/-- Core `c`'s TensorCore buffers when the region is entered: after the host operations that form h3, h4, hf. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The staging memrefs at a point, and the accumulator -/

/-- One staging buffer of the output window, through which its contents are stated. -/
abbrev VO0_6 : View sig .tc .vmem S1024x128 .f32 := (Memref.whole cc0_stg6_0 : Memref sig .tc .vmem S1024x128 .f32).view
abbrev ms0_0 (t : Fin cfg0.N) : Memref sig .tc .vmem S1024x128 .f32 := win0_0.stage (cfg0.slots t 0)
abbrev hs0_0 (t : Fin cfg0.N) : (ms0_0 t).IsWhole := Gen.hstage0_0 ((cfg0.slots t 0).cast Gen.nbuf0_0)
abbrev ms0_1 (t : Fin cfg0.N) : Memref sig .tc .vmem S512x128 .f32 := win0_1.stage (cfg0.slots t 1)
abbrev hs0_1 (t : Fin cfg0.N) : (ms0_1 t).IsWhole := Gen.hstage0_1 ((cfg0.slots t 1).cast Gen.nbuf0_1)
abbrev ms0_2 (t : Fin cfg0.N) : Memref sig .tc .vmem S512x128 .f32 := win0_2.stage (cfg0.slots t 2)
abbrev hs0_2 (t : Fin cfg0.N) : (ms0_2 t).IsWhole := Gen.hstage0_2 ((cfg0.slots t 2).cast Gen.nbuf0_2)
abbrev ms0_3 (t : Fin cfg0.N) : Memref sig .tc .vmem S1024x128 .f32 := win0_3.stage (cfg0.slots t 3)
abbrev hs0_3 (t : Fin cfg0.N) : (ms0_3 t).IsWhole := Gen.hstage0_3 ((cfg0.slots t 3).cast Gen.nbuf0_3)
abbrev ms0_4 (t : Fin cfg0.N) : Memref sig .tc .vmem S1024x512 .f32 := win0_4.stage (cfg0.slots t 4)
abbrev hs0_4 (t : Fin cfg0.N) : (ms0_4 t).IsWhole := Gen.hstage0_4 ((cfg0.slots t 4).cast Gen.nbuf0_4)
abbrev ms0_5 (t : Fin cfg0.N) : Memref sig .tc .vmem S1024x512 .f32 := win0_5.stage (cfg0.slots t 5)
abbrev hs0_5 (t : Fin cfg0.N) : (ms0_5 t).IsWhole := Gen.hstage0_5 ((cfg0.slots t 5).cast Gen.nbuf0_5)
abbrev ms0_6 (t : Fin cfg0.N) : Memref sig .tc .vmem S1024x128 .f32 := win0_6.stage (cfg0.slots t 6)
abbrev hs0_6 (t : Fin cfg0.N) : (ms0_6 t).IsWhole := Gen.hstage0_6 ((cfg0.slots t 6).cast Gen.nbuf0_6)
/-- The accumulator: a whole scoped buffer of the kernel's own. -/
abbrev scM0_0 : Memref sig .tc .vmem S1024x128 .f32 := Memref.whole cc0_scratch0
/-- The accumulator as a view: what it holds is stated through it. -/
abbrev VS0_0 : View sig .tc .vmem S1024x128 .f32 := scM0_0.view

/-- The scoped buffers that are no staging buffer: the accumulator, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Frm

end
-- ==== Proof.KI.Frame.lean ====
/-
  The frame of the fused kernel's region: what each control case leaves in the accumulator and in the output block's
  buffer, the accumulation point by point, the proof data of the pipeline, and the body obligation at every grid point.

  The accumulator is carried between points: at the first key tile of a query tile it is reset to the self-term
  block and the first key tile's contribution added; at every later key tile that tile's contribution is added to what
  the point before left; at the last key tile it is also copied to the output block, which only then is written back.
-/
import proofs.«117063_j8409545965928_1_alg».proof.Proof.KI.RunC
import proofs.«117063_j8409545965928_1_alg».proof.Proof.KI.Setup

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

variable (m : (ℓ : Loc nD τ sig) → Buf (Elt F) ℓ) (ρ : Dev nD → PrngReg)

/-- Case A stores nothing into the output block's buffer (the window is idle at its points and not written back
    there): no pieces, a placeholder nothing consults. -/
def out0_A_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- Case A's pieces for the accumulator tile it, so they cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S1024x128.size (by sl_kernel_rfl) y

/-- What case A leaves in the accumulator: its pieces read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- Case B stores nothing into the output block's buffer (the window is idle at its points and not written back
    there): no pieces, a placeholder nothing consults. -/
def out0_B_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- Case B's pieces for the accumulator tile it, so they cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case B leaves in the accumulator: its pieces read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Case C's pieces for the output block tile it, so they cover it. -/
theorem cover0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What case C leaves in the output block's staging buffer: its pieces read back. -/
def out0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- Case C's pieces for the accumulator tile it, so they cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What case C leaves in the accumulator: its pieces read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the buffers hold after each point -/

/-- THE ACCUMULATION. What the output block's staging buffer and the accumulator hold after the body at position `n`
    (a pair: the output's buffer, then the accumulator): the case the closed forms select at `n`, run at the point's
    memrefs and input blocks, the accumulator at what the point before left. -/
def outsAt0 (c : Dev nD) : (n : ℕ) → n < cfg0.N → Vec F S1024x128 .f32 × Vec F S1024x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything (the scoped rest as the
    launch hands it over); afterwards the accumulator at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`: the arrays as the region finds them; after the body at point `t` each
    input's buffer at its block and the output's at the accumulation's first component; the invariant the
    accumulator's contents; nothing owed. The two windows that read hf each hold half of that array's share; every
    other input holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold out0_C_6 sout0_C_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KI.Pieces.lean ====
/-
  What each control case of the fused kernel's body leaves, as values: the accumulator after the first key tile of a
  query tile is the block update applied to the self-term block; after every later key tile it is the block update
  applied to what the point before left; and at the last key tile the output block's buffer receives that same value.
  The block update is the body's one arithmetic term (the second payload), the copy of the self term its first.
-/
import proofs.«117063_j8409545965928_1_alg».proof.Proof.KI.Frame
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

theorem hz : (![0, 0] : Fin 2 → Nat) = fun _ => 0 := funext fun a => by fin_cases a <;> rfl

/-- First key tile: the accumulator ends at the block update of the copied self-term block. -/
theorem sout_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) :
    sout0_A_0 c i arg2 harg2 arg3 harg3 arg4 harg4 arg5 harg5 arg6 harg6 arg7 harg7 arg8 harg8 arg9 harg9 hc0 hc1 x0 x1 x2 x3 x4 x5 = k0_pay2 x0 x1 x4 x5 x2 (k0_pay1 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S512x128) hz, View.ld_unit_zero (S := S1024x512) hz]

/-- Middle key tile: the accumulator ends at the block update of what the point before left. -/
theorem sout_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : ¬cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x4 x5 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S512x128) hz, View.ld_unit_zero (S := S1024x512) hz]

/-- Last key tile: the accumulator ends at the block update of what the point before left, -/
theorem sout_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x4 x5 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S512x128) hz, View.ld_unit_zero (S := S1024x512) hz]

/-- and the output block's buffer receives the same value. -/
theorem out_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x128 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x128 .f32) (x1 : Vec F S512x128 .f32) (x2 : Vec F S512x128 .f32) (x3 : Vec F S1024x128 .f32) (x4 : Vec F S1024x512 .f32) (x5 : Vec F S1024x512 .f32) (xs0 : Vec F S1024x128 .f32) :
    out0_C_6 c i arg2 harg2 arg3 harg3 arg4 harg4 arg5 harg5 arg6 harg6 arg7 harg7 arg8 harg8 arg9 harg9 hc0 hc1 x0 x1 x2 x3 x4 x5 xs0 = k0_pay2 x0 x1 x4 x5 x2 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S1024x128) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S512x128) hz, View.ld_unit_zero (S := S1024x512) hz]

end Cert.KernelIdeal.Frm

end
-- ==== Proof.Spec.lean ====
/-
  What the fused aggregation computes, entry by entry, on the extended reals.

  With h3 = h1·W1ᵀ, h4 = h1·W2ᵀ and hf = h1·Wfᵀ (each entry a sum of 128 products), the score of a query row p
  against a key row j is s(p, j) = ∑ k, h3(p, k) · h4(j, k), the gate is the logistic function of 0 − s(p, j), and
  the weight of key j for query p is

      w(p, j) = gate(p, j) · adj(p, j) − (1 − gate(p, j)) · negadj(p, j).

  Output entry (p, d) is the self term hf(p, d) plus, for each of the 16 consecutive blocks of 512 keys, the
  block's contribution ∑ jj, w(p, jj + 512·kb) · hf(jj + 512·kb, d), added block after block. The float word for 1
  is kept as its word: both programs carry the same one.
-/
import Idealize.ShloMosaic.PureOps.Ideal
import Idealize.ShloMosaic.Lib.ValueIdx

noncomputable section

namespace Cert.Spec

open Idealize.ShloMosaic Idealize.ShloMosaic.ValueIdx

/-- An [a, b] array of extended reals. -/
abbrev Mat (a b : Nat) : Type := (⟨2, ![a, b]⟩ : Shape).Idx → EReal

/-- Every entry of an array is a real number (neither infinity). -/
def AllReal {s : Shape} (x : s.Idx → EReal) : Prop := ∀ i, ∃ r : ℝ, x i = (r : EReal)

/-- Key `jj` of block `kb`: row `jj + 512·kb`. -/
def key (kb : Fin 16) (jj : Fin 512) : Fin 8192 := ⟨jj.val + 512 * kb.val, by omega⟩

/-- The float word for one, as both programs print it. -/
def one : EReal := Ideal.ofBits .f32 0x3F800000#32

/-- Entry (p, k) of h1·Wᵀ. -/
def proj (h1 : Mat 8192 128) (W : Mat 128 128) (p : Fin 8192) (k : Fin 128) : EReal :=
  ∑ a : Fin 128, h1 (ix2 p a) * W (ix2 k a)

/-- The score of query row `p` against key row `j`. -/
def score (h1 : Mat 8192 128) (W1 W2 : Mat 128 128) (p j : Fin 8192) : EReal :=
  ∑ k : Fin 128, proj h1 W1 p k * proj h1 W2 j k

/-- The gate: the logistic function of the negated score, the negation spelt `0 − s`. -/
def gate (h1 : Mat 8192 128) (W1 W2 : Mat 128 128) (p j : Fin 8192) : EReal :=
  Ideal.logistic (0 - score h1 W1 W2 p j)

/-- The weight of key `j` for query `p`. -/
def weight (h1 : Mat 8192 128) (adj negadj : Mat 8192 8192) (W1 W2 : Mat 128 128) (p j : Fin 8192) : EReal :=
  gate h1 W1 W2 p j * adj (ix2 p j) - (one - gate h1 W1 W2 p j) * negadj (ix2 p j)

/-- What block `kb` of 512 keys adds to output entry (p, d). -/
def blockTerm (h1 : Mat 8192 128) (adj negadj : Mat 8192 8192) (W1 W2 Wf : Mat 128 128)
    (p : Fin 8192) (d : Fin 128) (kb : Fin 16) : EReal :=
  ∑ jj : Fin 512, weight h1 adj negadj W1 W2 p (key kb jj) * proj h1 Wf (key kb jj) d

/-- Output entry (p, d) after the first `n` blocks: the self term and those blocks' contributions. -/
def partialOut (h1 : Mat 8192 128) (adj negadj : Mat 8192 8192) (W1 W2 Wf : Mat 128 128)
    (p : Fin 8192) (d : Fin 128) (n : Nat) : EReal :=
  proj h1 Wf p d + ∑ kb : Fin 16, if kb.val < n then blockTerm h1 adj negadj W1 W2 Wf p d kb else 0

/-- The result array: every block added. -/
def out (h1 : Mat 8192 128) (adj negadj : Mat 8192 8192) (W1 W2 Wf : Mat 128 128) : Mat 8192 128 :=
  fun i => partialOut h1 adj negadj W1 W2 Wf (i 0) (i 1) 16

/-- With every block added the guard is vacuous. -/
theorem out_apply (h1 : Mat 8192 128) (adj negadj : Mat 8192 8192) (W1 W2 Wf : Mat 128 128) (p : Fin 8192) (d : Fin 128) :
    out h1 adj negadj W1 W2 Wf (ix2 p d)
      = proj h1 Wf p d + ∑ kb : Fin 16, blockTerm h1 adj negadj W1 W2 Wf p d kb := by
  show partialOut h1 adj negadj W1 W2 Wf p d 16 = _
  unfold partialOut
  exact congrArg (proj h1 Wf p d + ·) (Finset.sum_congr rfl fun kb _ => if_pos kb.isLt)

/-- Nothing added yet: the self term. -/
theorem partialOut_zero (h1 : Mat 8192 128) (adj negadj : Mat 8192 8192) (W1 W2 Wf : Mat 128 128) (p : Fin 8192) (d : Fin 128) :
    partialOut h1 adj negadj W1 W2 Wf p d 0 = proj h1 Wf p d := by
  unfold partialOut
  simp

/-- One more block: its contribution is added to what the blocks before left. -/
theorem partialOut_succ (h1 : Mat 8192 128) (adj negadj : Mat 8192 8192) (W1 W2 Wf : Mat 128 128) (p : Fin 8192) (d : Fin 128)
    (kb : Fin 16) :
    partialOut h1 adj negadj W1 W2 Wf p d (kb.val + 1)
      = partialOut h1 adj negadj W1 W2 Wf p d kb.val + blockTerm h1 adj negadj W1 W2 Wf p d kb := by
  unfold partialOut
  rw [add_assoc]
  congr 1
  have hsplit : ∀ j : Fin 16, (if j.val < kb.val + 1 then blockTerm h1 adj negadj W1 W2 Wf p d j else 0)
      = (if j.val < kb.val then blockTerm h1 adj negadj W1 W2 Wf p d j else 0)
        + (if j = kb then blockTerm h1 adj negadj W1 W2 Wf p d j else 0) := by
    intro j
    by_cases h1' : j.val < kb.val
    · have h2 : j ≠ kb := fun e => by rw [e] at h1'; exact lt_irrefl _ h1'
      rw [if_pos (by omega), if_pos h1', if_neg h2, add_zero]
    · by_cases h2 : j = kb
      · rw [if_pos (by rw [h2]; omega), if_neg h1', if_pos h2, zero_add]
      · have h3 : ¬ j.val < kb.val + 1 := fun h => h2 (Fin.ext (by omega))
        rw [if_neg h3, if_neg h1', if_neg h2, add_zero]
  rw [Finset.sum_congr rfl fun j _ => hsplit j, Finset.sum_add_distrib, Finset.sum_ite_eq' Finset.univ kb]
  simp

end Cert.Spec

end
-- ==== Proof.KernelDot.lean ====
/-
  The kernel program's three contractions as plain sums over the contracted coordinate.

  Each of its matrix products contracts the left operand's second axis with the right operand's first axis,
  so result entry (r, c) is the sum over k of left (r, k) times right (k, c). The host's three projections
  h1·Wᵀ, read this way through the transposed weight, are the specification's projection entries.
-/
import proofs.«117063_j8409545965928_1_alg».proof.Proof.Spec
import proofs.«117063_j8409545965928_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelDot

open Idealize.ShloMosaic Idealize.ShloMosaic.ValueIdx Cert.KernelIdeal Cert.KernelIdeal.Facts₀

variable [Cert.KernelIdeal.Facts]

/-! ## The host projection [8192,128] × [128,128] -/

theorem lhs_proj_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

theorem rhs_proj_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The projection's contraction as a sum over the 128 contracted coordinates. -/
theorem sum_proj (lhs : S8192x128.Idx → EReal) (rhs : S128x128.Idx → EReal) (p : Fin 8192) (c : Fin 128) :
    ∑ q : dot_S8192x128_S128x128_S8192x128_1_0_0_1_n_n.contr.Idx,
        lhs (dot_S8192x128_S128x128_S8192x128_1_0_0_1_n_n.lhsIdx (ix2 p c) q)
          * rhs (dot_S8192x128_S128x128_S8192x128_1_0_0_1_n_n.rhsIdx (ix2 p c) q)
      = ∑ k : Fin 128, lhs (ix2 p k) * rhs (ix2 k c) := by
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p c)
      ((contrEquiv1 dot_S8192x128_S128x128_S8192x128_1_0_0_1_n_n 128 rfl rfl).symm k) = ix2 p k :=
    funext fun a => Fin.ext (by
      match a with
      | ⟨0, _⟩ => exact lhs_proj_0 _ _
      | ⟨1, _⟩ => exact (dot_S8192x128_S128x128_S8192x128_1_0_0_1_n_n.lhsIdx_val_of_single rfl _ _).trans hk)
  have er : dot_S8192x128_S128x128_S8192x128_1_0_0_1_n_n.rhsIdx (ix2 p c)
      ((contrEquiv1 dot_S8192x128_S128x128_S8192x128_1_0_0_1_n_n 128 rfl rfl).symm k) = ix2 k c :=
    funext fun a => Fin.ext (by
      match a with
      | ⟨0, _⟩ => exact (dot_S8192x128_S128x128_S8192x128_1_0_0_1_n_n.rhsIdx_val_of_single rfl _ _).trans hk
      | ⟨1, _⟩ => exact rhs_proj_1 _ _)
  rw [el, er]

/-- Each of the program's three host projections, read at (p, k), is the specification's projection entry. -/
theorem kproj (h1 : Cert.Spec.Mat 8192 128) (W : Cert.Spec.Mat 128 128) (p : Fin 8192) (k : Fin 128) :
    Host.dotGeneral (F := Ideal) (φ₁ := .f32) (φ₂ := .f32) dot_S8192x128_S128x128_S8192x128_1_0_0_1_n_n none h1
        (transpose S128x128 [1, 0] W transposes_S128x128_S128x128_1_0) (ix2 p k)
      = Cert.Spec.proj h1 W p k := by
  simp only [Host.dotGeneral]
  rw [Ideal.dotGeneral_apply]
  refine (sum_proj h1 _ p k).trans ?_
  refine Finset.sum_congr rfl fun a _ => ?_
  rw [transpose_apply [1, 0] W transposes_S128x128_S128x128_1_0 (ix2 a k) (ix2 k a) (fun b => match b with
    | ⟨0, _⟩ => rfl
    | ⟨1, _⟩ => rfl)]

/-! ## The score tile [1024,128] × [128,512] -/

theorem lhs_score_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide),
    dif_pos (show (0 : Fin S1024x128.rank) ∈ dot_S1024x128_S128x512_S1024x512_1_0_0_1_n_n.lhsNonContracting by decide)]
  rfl

theorem rhs_score_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide),
    dif_pos (show (1 : Fin S128x512.rank) ∈ dot_S1024x128_S128x512_S1024x512_1_0_0_1_n_n.rhsNonContracting by decide)]
  rfl

/-- The score tile's contraction as a sum over the 128 contracted coordinates. -/
theorem sum_score (lhs : S1024x128.Idx → EReal) (rhs : S128x512.Idx → EReal) (r : Fin 1024) (c : Fin 512) :
    ∑ q : dot_S1024x128_S128x512_S1024x512_1_0_0_1_n_n.contr.Idx,
        lhs (dot_S1024x128_S128x512_S1024x512_1_0_0_1_n_n.lhsIdx (ix2 r c) q)
          * rhs (dot_S1024x128_S128x512_S1024x512_1_0_0_1_n_n.rhsIdx (ix2 r c) q)
      = ∑ k : Fin 128, lhs (ix2 r k) * rhs (ix2 k c) := by
  rw [← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r c)
      ((contrEquiv1 dot_S1024x128_S128x512_S1024x512_1_0_0_1_n_n 128 rfl rfl).symm k) = ix2 r k :=
    funext fun a => Fin.ext (by
      match a with
      | ⟨0, _⟩ => exact lhs_score_0 _ _
      | ⟨1, _⟩ => exact (dot_S1024x128_S128x512_S1024x512_1_0_0_1_n_n.lhsIdx_val_of_single rfl _ _).trans hk)
  have er : dot_S1024x128_S128x512_S1024x512_1_0_0_1_n_n.rhsIdx (ix2 r c)
      ((contrEquiv1 dot_S1024x128_S128x512_S1024x512_1_0_0_1_n_n 128 rfl rfl).symm k) = ix2 k c :=
    funext fun a => Fin.ext (by
      match a with
      | ⟨0, _⟩ => exact (dot_S1024x128_S128x512_S1024x512_1_0_0_1_n_n.rhsIdx_val_of_single rfl _ _).trans hk
      | ⟨1, _⟩ => exact rhs_score_1 _ _)
  rw [el, er]

/-! ## The aggregation tile [1024,512] × [512,128] -/

theorem lhs_agg_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl

theorem rhs_agg_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The aggregation tile's contraction as a sum over the 512 keys of the tile. -/
theorem sum_agg (lhs : S1024x512.Idx → EReal) (rhs : S512x128.Idx → EReal) (r : Fin 1024) (c : Fin 128) :
    ∑ q : dot_S1024x512_S512x128_S1024x128_1_0_0_1_n_n.contr.Idx,
        lhs (dot_S1024x512_S512x128_S1024x128_1_0_0_1_n_n.lhsIdx (ix2 r c) q)
          * rhs (dot_S1024x512_S512x128_S1024x128_1_0_0_1_n_n.rhsIdx (ix2 r c) q)
      = ∑ k : Fin 512, lhs (ix2 r k) * rhs (ix2 k c) := by
  rw [← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 r c)
      ((contrEquiv1 dot_S1024x512_S512x128_S1024x128_1_0_0_1_n_n 512 rfl rfl).symm k) = ix2 r k :=
    funext fun a => Fin.ext (by
      match a with
      | ⟨0, _⟩ => exact lhs_agg_0 _ _
      | ⟨1, _⟩ => exact (dot_S1024x512_S512x128_S1024x128_1_0_0_1_n_n.lhsIdx_val_of_single rfl _ _).trans hk)
  have er : dot_S1024x512_S512x128_S1024x128_1_0_0_1_n_n.rhsIdx (ix2 r c)
      ((contrEquiv1 dot_S1024x512_S512x128_S1024x128_1_0_0_1_n_n 512 rfl rfl).symm k) = ix2 k c :=
    funext fun a => Fin.ext (by
      match a with
      | ⟨0, _⟩ => exact (dot_S1024x512_S512x128_S1024x128_1_0_0_1_n_n.rhsIdx_val_of_single rfl _ _).trans hk
      | ⟨1, _⟩ => exact rhs_agg_1 _ _)
  rw [el, er]

end Cert.KernelDot

end
-- ==== Proof.KernelPay.lean ====
/-
  The kernel body's two stored values, read entry by entry on the extended reals.

  The first store copies the self-term tile unchanged (two shape casts of a tile to its own shape). The second
  adds one key tile's contribution to the accumulator: the score of query row r against key row jj of the tile is
  ∑ k, h3(r, k) · h4(jj, k) (the product with the transposed key tile, into a zero accumulator; narrowing to the
  16-bit format is the identity on extended reals), the gate is the logistic function of 0 − score, the weight
  is gate · adj − (1 − gate) · negadj, and the tile's contribution to entry (r, d) is ∑ jj, weight(r, jj) · hf(jj, d),
  again a product into a zero accumulator.
-/
import proofs.«117063_j8409545965928_1_alg».proof.Proof.Spec
import proofs.«117063_j8409545965928_1_alg».proof.Proof.KernelDot
import proofs.«117063_j8409545965928_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelPay

open Idealize.ShloMosaic Idealize.ShloMosaic.ValueIdx Cert.KernelIdeal Cert.KernelIdeal.Facts₀ Cert.KernelDot

variable [Cert.KernelIdeal.Facts]

/-- The first store's value is the loaded tile itself. -/
theorem pay1_eq (v34 : Vec Ideal S1024x128 .f32) : Cert.KernelIdeal.Gen.k0_pay1 (F := Ideal) v34 = v34 := by
  unfold Cert.KernelIdeal.Gen.k0_pay1
  simp only [shapeCast_self]

/-- The score tile: the query tile times the transposed key tile, into a zero accumulator. -/
def scoreTile (v3 : FVec Ideal S1024x128 .f32) (v6 : FVec Ideal S512x128 .f32) : FVec Ideal S1024x512 .f32 :=
  matmul dot_S1024x128_S128x512_S1024x512_1_0_0_1_n_n none (truncf .bf16 v3 bitsLt_bf16_f32)
    (transpose S128x512 [1, 0] (truncf .bf16 v6 bitsLt_bf16_f32) transposes_S512x128_p1_0_S128x512)
    (constant S1024x512 .f32 0x00000000#32)

/-- Entry (r, jj) of the score tile. -/
theorem scoreTile_apply (v3 : FVec Ideal S1024x128 .f32) (v6 : FVec Ideal S512x128 .f32) (r : Fin 1024) (jj : Fin 512) :
    scoreTile v3 v6 (ix2 r jj) = ∑ k : Fin 128, v3 (ix2 r k) * v6 (ix2 jj k) := by
  unfold scoreTile
  refine (Ideal.matmul_constant_zero_apply (φ₁ := .bf16) (φ₂ := .bf16) dot_S1024x128_S128x512_S1024x512_1_0_0_1_n_n none _ _ (ix2 r jj)).trans ?_
  refine (sum_score _ _ r jj).trans ?_
  refine Finset.sum_congr rfl fun k _ => ?_
  rw [transpose_apply [1, 0] (truncf .bf16 v6 bitsLt_bf16_f32) transposes_S512x128_p1_0_S128x512 (ix2 k jj) (ix2 jj k)
    (fun b => match b with
      | ⟨0, _⟩ => rfl
      | ⟨1, _⟩ => rfl)]
  rfl

/-- Entry (r, d) of the second store's value: the accumulator plus the key tile's contribution. -/
theorem pay2_apply (v3 : Vec Ideal S1024x128 .f32) (v6 : Vec Ideal S512x128 .f32) (v14 v18 : Vec Ideal S1024x512 .f32)
    (v22 : Vec Ideal S512x128 .f32) (v25 : Vec Ideal S1024x128 .f32) (r : Fin 1024) (d : Fin 128) :
    Cert.KernelIdeal.Gen.k0_pay2 (F := Ideal) v3 v6 v14 v18 v22 v25 (ix2 r d)
      = v25 (ix2 r d) + ∑ jj : Fin 512,
          (Ideal.logistic (0 - ∑ k : Fin 128, v3 (ix2 r k) * v6 (ix2 jj k)) * v14 (ix2 r jj)
            - (Cert.Spec.one - Ideal.logistic (0 - ∑ k : Fin 128, v3 (ix2 r k) * v6 (ix2 jj k))) * v18 (ix2 r jj))
          * v22 (ix2 jj d) := by
  unfold Cert.KernelIdeal.Gen.k0_pay2
  simp only [shapeCast_self]
  refine (congrArg (v25 (ix2 r d) + ·)
    ((Ideal.matmul_constant_zero_apply (φ₁ := .bf16) (φ₂ := .bf16) dot_S1024x512_S512x128_S1024x128_1_0_0_1_n_n none _ _ (ix2 r d)).trans
      (sum_agg _ _ r d))).trans ?_
  refine congrArg (v25 (ix2 r d) + ·) (Finset.sum_congr rfl fun jj _ => ?_)
  refine congrArg (· * v22 (ix2 jj d)) ?_
  have hs := scoreTile_apply v3 v6 r jj
  show Ideal.logistic (Ideal.ofBits .f32 0x00000000#32 - scoreTile v3 v6 (ix2 r jj)) * v14 (ix2 r jj)
      - (Cert.Spec.one - Ideal.logistic (Ideal.ofBits .f32 0x00000000#32 - scoreTile v3 v6 (ix2 r jj))) * v18 (ix2 r jj) = _
  rw [hs, Ideal.ofBits_zero_f32]

end Cert.KernelPay

end
-- ==== Proof.KernelStep.lean ====
/-
  One key tile's step of the accumulation, entry by entry. If the six blocks the body loads are, at the entries the
  update reads, the projections' and the adjacency arrays' entries for query row p and key tile kb, and the accumulator
  held the partial output after the first kb key tiles, then the block update leaves the partial output after kb + 1 key
  tiles: it adds exactly that tile's contribution. No finiteness is used: the update and the specification are the same
  expression.
-/
import proofs.«117063_j8409545965928_1_alg».proof.Proof.Spec
import proofs.«117063_j8409545965928_1_alg».proof.Proof.KernelPay

noncomputable section

namespace Cert.KernelStep

open Idealize.ShloMosaic Idealize.ShloMosaic.ValueIdx Cert.KernelIdeal Cert.KernelIdeal.Gen Cert.Spec

variable [Cert.KernelIdeal.Facts]

/-- The block update at entry (r, d), when the blocks are the tile's entries and the accumulator the partial output. -/
theorem step (h1 : Mat 8192 128) (adj negadj : Mat 8192 8192) (W1 W2 Wf : Mat 128 128) (p : Fin 8192) (kb : Fin 16)
    (b0 : Vec Ideal S1024x128 .f32) (b1 : Vec Ideal S512x128 .f32) (b4 b5 : Vec Ideal S1024x512 .f32)
    (b2 : Vec Ideal S512x128 .f32) (prev : Vec Ideal S1024x128 .f32) (r : Fin 1024) (d : Fin 128)
    (e0 : ∀ k : Fin 128, b0 (ix2 r k) = proj h1 W1 p k)
    (e1 : ∀ (jj : Fin 512) (k : Fin 128), b1 (ix2 jj k) = proj h1 W2 (key kb jj) k)
    (e2 : ∀ jj : Fin 512, b2 (ix2 jj d) = proj h1 Wf (key kb jj) d)
    (e4 : ∀ jj : Fin 512, b4 (ix2 r jj) = adj (ix2 p (key kb jj)))
    (e5 : ∀ jj : Fin 512, b5 (ix2 r jj) = negadj (ix2 p (key kb jj)))
    (eprev : prev (ix2 r d) = partialOut h1 adj negadj W1 W2 Wf p d kb.val) :
    k0_pay2 (F := Ideal) b0 b1 b4 b5 b2 prev (ix2 r d) = partialOut h1 adj negadj W1 W2 Wf p d (kb.val + 1) := by
  refine (Cert.KernelPay.pay2_apply b0 b1 b4 b5 b2 prev r d).trans ?_
  rw [eprev, partialOut_succ]
  refine congrArg (partialOut h1 adj negadj W1 W2 Wf p d kb.val + ·) ?_
  unfold blockTerm weight gate score
  refine Finset.sum_congr rfl fun jj _ => ?_
  have hs : (∑ k : Fin 128, b0 (ix2 r k) * b1 (ix2 jj k)) = ∑ k : Fin 128, proj h1 W1 p k * proj h1 W2 (key kb jj) k :=
    Finset.sum_congr rfl fun k _ => by rw [e0 k, e1 jj k]
  rw [hs, e4 jj, e5 jj, e2 jj]

/-- The first key tile's step: the accumulator was just set to the self-term block. -/
theorem step_first (h1 : Mat 8192 128) (adj negadj : Mat 8192 8192) (W1 W2 Wf : Mat 128 128) (p : Fin 8192) (kb : Fin 16) (hkb : kb.val = 0)
    (b0 : Vec Ideal S1024x128 .f32) (b1 : Vec Ideal S512x128 .f32) (b4 b5 : Vec Ideal S1024x512 .f32)
    (b2 : Vec Ideal S512x128 .f32) (b3 : Vec Ideal S1024x128 .f32) (r : Fin 1024) (d : Fin 128)
    (e0 : ∀ k : Fin 128, b0 (ix2 r k) = proj h1 W1 p k)
    (e1 : ∀ (jj : Fin 512) (k : Fin 128), b1 (ix2 jj k) = proj h1 W2 (key kb jj) k)
    (e2 : ∀ jj : Fin 512, b2 (ix2 jj d) = proj h1 Wf (key kb jj) d)
    (e3 : b3 (ix2 r d) = proj h1 Wf p d)
    (e4 : ∀ jj : Fin 512, b4 (ix2 r jj) = adj (ix2 p (key kb jj)))
    (e5 : ∀ jj : Fin 512, b5 (ix2 r jj) = negadj (ix2 p (key kb jj))) :
    k0_pay2 (F := Ideal) b0 b1 b4 b5 b2 (k0_pay1 (F := Ideal) b3) (ix2 r d) = partialOut h1 adj negadj W1 W2 Wf p d (kb.val + 1) :=
  step h1 adj negadj W1 W2 Wf p kb b0 b1 b4 b5 b2 (k0_pay1 (F := Ideal) b3) r d e0 e1 e2 e4 e5
    (by rw [Cert.KernelPay.pay1_eq, e3, hkb, partialOut_zero])

end Cert.KernelStep

end
-- ==== Proof.KernelBlocks.lean ====
/-
  The windows' blocks, entry by entry.

  The grid has 8 query tiles and 16 key tiles, the key tile moving fastest: point t has query tile t / 16 and key
  tile t % 16. A block's entry sits in its array at block index × block size + the coordinate inside the block.
  So at point t the query-tile windows (h3, and hf for the self term) hold rows r + 1024·(t / 16), the key-tile
  windows (h4, hf) hold rows jj + 512·(t % 16), and the adjacency windows hold the entries at those rows and
  columns. The three arrays h3, h4, hf are what the host's projections wrote before the region, so their entries
  are the specification's projection entries. The result window's block at point t covers rows
  r + 1024·(t / 16) of the result array, it is written back at the last key tile of each query tile, and those
  eight blocks cover the whole array.
-/
import proofs.«117063_j8409545965928_1_alg».proof.Proof.KI.Setup
import proofs.«117063_j8409545965928_1_alg».proof.Proof.KernelDot
import proofs.«117063_j8409545965928_1_alg».proof.Proof.Spec
import Idealize.ShloMosaic.Lib.Pipeline.Value
import Idealize.ShloMosaic.Lib.StableHlo.Run

set_option maxRecDepth 16384

noncomputable section

namespace Cert.KernelBlocks

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Facts₀ Cert.KernelIdeal.Facts Cert.KernelIdeal.Frm

variable (m : (ℓ : Loc nD τ sig) → Buf (Elt Ideal) ℓ)

/-- The six arguments as the program is launched with them. -/
abbrev argH1 (c : Dev nD) : Cert.Spec.Mat 8192 128 := m ((c : Thread nD τ).loc main_arg0)
abbrev argAdj (c : Dev nD) : Cert.Spec.Mat 8192 8192 := m ((c : Thread nD τ).loc main_arg1)
abbrev argNegadj (c : Dev nD) : Cert.Spec.Mat 8192 8192 := m ((c : Thread nD τ).loc main_arg2)
abbrev argW1 (c : Dev nD) : Cert.Spec.Mat 128 128 := m ((c : Thread nD τ).loc main_arg3)
abbrev argW2 (c : Dev nD) : Cert.Spec.Mat 128 128 := m ((c : Thread nD τ).loc main_arg4)
abbrev argWf (c : Dev nD) : Cert.Spec.Mat 128 128 := m ((c : Thread nD τ).loc main_arg5)

/-- Point t's query tile is t / 16: query row r of the tile is row r + 1024·(t / 16). -/
def qrow (t : Fin cfg0.N) (r : Fin 1024) : Fin 8192 :=
  ⟨r.val + 1024 * (t.val / 16), by have h : t.val < 128 := Nat.lt_of_lt_of_eq t.isLt N_0; omega⟩

/-- Point t's key tile is t % 16. -/
def ktile (t : Fin cfg0.N) : Fin 16 := ⟨t.val % 16, Nat.mod_lt _ (by decide)⟩

/-- The printed index maps, decided over the grid: the block index of each window at point t. -/
theorem idx_facts : ∀ t : Fin cfg0.N,
    (win0_0.index t (0 : Fin 2) = t.val / 16 ∧ win0_0.index t (1 : Fin 2) = 0)
    ∧ (win0_1.index t (0 : Fin 2) = t.val % 16 ∧ win0_1.index t (1 : Fin 2) = 0)
    ∧ (win0_2.index t (0 : Fin 2) = t.val % 16 ∧ win0_2.index t (1 : Fin 2) = 0)
    ∧ (win0_3.index t (0 : Fin 2) = t.val / 16 ∧ win0_3.index t (1 : Fin 2) = 0)
    ∧ (win0_4.index t (0 : Fin 2) = t.val / 16 ∧ win0_4.index t (1 : Fin 2) = t.val % 16)
    ∧ (win0_5.index t (0 : Fin 2) = t.val / 16 ∧ win0_5.index t (1 : Fin 2) = t.val % 16)
    ∧ (win0_6.index t (0 : Fin 2) = t.val / 16 ∧ win0_6.index t (1 : Fin 2) = 0) :=
  (by decide +kernel : ∀ t : Fin grid0.N, _)

/-! ## The arrays the host wrote before the region -/

/-- The array h3 = h1·W1ᵀ as the region finds it. -/
theorem V_h3 (c : Dev nD) : (V m c main_v1 : S8192x128.Idx → EReal)
    = Host.dotGeneral (F := Ideal) (φ₁ := .f32) (φ₂ := .f32) dot_S8192x128_S128x128_S8192x128_1_0_0_1_n_n none
        (argH1 m c) (transpose S128x128 [1, 0] (argW1 m c) Facts₀.transposes_S128x128_S128x128_1_0) := by
  dsimp only [V, hostOps0]; after_results

/-- The array h4 = h1·W2ᵀ as the region finds it. -/
theorem V_h4 (c : Dev nD) : (V m c main_v3 : S8192x128.Idx → EReal)
    = Host.dotGeneral (F := Ideal) (φ₁ := .f32) (φ₂ := .f32) dot_S8192x128_S128x128_S8192x128_1_0_0_1_n_n none
        (argH1 m c) (transpose S128x128 [1, 0] (argW2 m c) Facts₀.transposes_S128x128_S128x128_1_0) := by
  dsimp only [V, hostOps0]; after_results

/-- The array hf = h1·Wfᵀ as the region finds it. -/
theorem V_hf (c : Dev nD) : (V m c main_v5 : S8192x128.Idx → EReal)
    = Host.dotGeneral (F := Ideal) (φ₁ := .f32) (φ₂ := .f32) dot_S8192x128_S128x128_S8192x128_1_0_0_1_n_n none
        (argH1 m c) (transpose S128x128 [1, 0] (argWf m c) Facts₀.transposes_S128x128_S128x128_1_0) := by
  dsimp only [V, hostOps0]; after_results

/-! ## The input windows' blocks -/

/-- Window 0 at point t: the query tile's rows of h3. -/
theorem blk0 (c : Dev nD) (t : Fin cfg0.N) (r : Fin 1024) (k : Fin 128) :
    (iblk m c 0 t : S1024x128.Idx → EReal) (ix2 r k) = Cert.Spec.proj (argH1 m c) (argW1 m c) (qrow t r) k := by
  obtain ⟨⟨e0, e1⟩, -⟩ := idx_facts t
  unfold iblk
  rw [View.read_apply]
  show V m c main_v1 _ = _
  rw [V_h3]
  have hi : ((cfg0.win 0).blk t).view.emb (ix2 r k) = ix2 (qrow t r) k := by
    funext a; apply Fin.ext
    match a with
    | ⟨0, _⟩ => show win0_0.index t (0 : Fin 2) * 1024 + 1 * r.val = r.val + 1024 * (t.val / 16); rw [e0]; omega
    | ⟨1, _⟩ => show win0_0.index t (1 : Fin 2) * 128 + 1 * k.val = k.val; rw [e1]; omega
  rw [hi]
  exact Cert.KernelDot.kproj (argH1 m c) (argW1 m c) (qrow t r) k

/-- Window 1 at point t: the key tile's rows of h4. -/
theorem blk1 (c : Dev nD) (t : Fin cfg0.N) (jj : Fin 512) (k : Fin 128) :
    (iblk m c 1 t : S512x128.Idx → EReal) (ix2 jj k) = Cert.Spec.proj (argH1 m c) (argW2 m c) (Cert.Spec.key (ktile t) jj) k := by
  obtain ⟨-, ⟨e0, e1⟩, -⟩ := idx_facts t
  unfold iblk
  rw [View.read_apply]
  show V m c main_v3 _ = _
  rw [V_h4]
  have hi : ((cfg0.win 1).blk t).view.emb (ix2 jj k) = ix2 (Cert.Spec.key (ktile t) jj) k := by
    funext a; apply Fin.ext
    match a with
    | ⟨0, _⟩ => show win0_1.index t (0 : Fin 2) * 512 + 1 * jj.val = jj.val + 512 * (t.val % 16); rw [e0]; omega
    | ⟨1, _⟩ => show win0_1.index t (1 : Fin 2) * 128 + 1 * k.val = k.val; rw [e1]; omega
  rw [hi]
  exact Cert.KernelDot.kproj (argH1 m c) (argW2 m c) (Cert.Spec.key (ktile t) jj) k

/-- Window 2 at point t: the key tile's rows of hf. -/
theorem blk2 (c : Dev nD) (t : Fin cfg0.N) (jj : Fin 512) (d : Fin 128) :
    (iblk m c 2 t : S512x128.Idx → EReal) (ix2 jj d) = Cert.Spec.proj (argH1 m c) (argWf m c) (Cert.Spec.key (ktile t) jj) d := by
  obtain ⟨-, -, ⟨e0, e1⟩, -⟩ := idx_facts t
  unfold iblk
  rw [View.read_apply]
  show V m c main_v5 _ = _
  rw [V_hf]
  have hi : ((cfg0.win 2).blk t).view.emb (ix2 jj d) = ix2 (Cert.Spec.key (ktile t) jj) d := by
    funext a; apply Fin.ext
    match a with
    | ⟨0, _⟩ => show win0_2.index t (0 : Fin 2) * 512 + 1 * jj.val = jj.val + 512 * (t.val % 16); rw [e0]; omega
    | ⟨1, _⟩ => show win0_2.index t (1 : Fin 2) * 128 + 1 * d.val = d.val; rw [e1]; omega
  rw [hi]
  exact Cert.KernelDot.kproj (argH1 m c) (argWf m c) (Cert.Spec.key (ktile t) jj) d

/-- Window 3 at point t: the query tile's rows of hf, the self term. -/
theorem blk3 (c : Dev nD) (t : Fin cfg0.N) (r : Fin 1024) (d : Fin 128) :
    (iblk m c 3 t : S1024x128.Idx → EReal) (ix2 r d) = Cert.Spec.proj (argH1 m c) (argWf m c) (qrow t r) d := by
  obtain ⟨-, -, -, ⟨e0, e1⟩, -⟩ := idx_facts t
  unfold iblk
  rw [View.read_apply]
  show V m c main_v5 _ = _
  rw [V_hf]
  have hi : ((cfg0.win 3).blk t).view.emb (ix2 r d) = ix2 (qrow t r) d := by
    funext a; apply Fin.ext
    match a with
    | ⟨0, _⟩ => show win0_3.index t (0 : Fin 2) * 1024 + 1 * r.val = r.val + 1024 * (t.val / 16); rw [e0]; omega
    | ⟨1, _⟩ => show win0_3.index t (1 : Fin 2) * 128 + 1 * d.val = d.val; rw [e1]; omega
  rw [hi]
  exact Cert.KernelDot.kproj (argH1 m c) (argWf m c) (qrow t r) d

/-- Window 4 at point t: the (query tile, key tile) block of adj. -/
theorem blk4 (c : Dev nD) (t : Fin cfg0.N) (r : Fin 1024) (jj : Fin 512) :
    (iblk m c 4 t : S1024x512.Idx → EReal) (ix2 r jj)
      = argAdj m c (ix2 (qrow t r) (Cert.Spec.key (ktile t) jj)) := by
  obtain ⟨-, -, -, -, ⟨e0, e1⟩, -⟩ := idx_facts t
  unfold iblk
  rw [View.read_apply]
  show V m c main_arg1 _ = _
  rw [V_main_arg1 m c]
  have hi : ((cfg0.win 4).blk t).view.emb (ix2 r jj) = ix2 (qrow t r) (Cert.Spec.key (ktile t) jj) := by
    funext a; apply Fin.ext
    match a with
    | ⟨0, _⟩ => show win0_4.index t (0 : Fin 2) * 1024 + 1 * r.val = r.val + 1024 * (t.val / 16); rw [e0]; omega
    | ⟨1, _⟩ => show win0_4.index t (1 : Fin 2) * 512 + 1 * jj.val = jj.val + 512 * (t.val % 16); rw [e1]; omega
  exact congrArg (argAdj m c) hi

/-- Window 5 at point t: the (query tile, key tile) block of negadj. -/
theorem blk5 (c : Dev nD) (t : Fin cfg0.N) (r : Fin 1024) (jj : Fin 512) :
    (iblk m c 5 t : S1024x512.Idx → EReal) (ix2 r jj)
      = argNegadj m c (ix2 (qrow t r) (Cert.Spec.key (ktile t) jj)) := by
  obtain ⟨-, -, -, -, -, ⟨e0, e1⟩, -⟩ := idx_facts t
  unfold iblk
  rw [View.read_apply]
  show V m c main_arg2 _ = _
  rw [V_main_arg2 m c]
  have hi : ((cfg0.win 5).blk t).view.emb (ix2 r jj) = ix2 (qrow t r) (Cert.Spec.key (ktile t) jj) := by
    funext a; apply Fin.ext
    match a with
    | ⟨0, _⟩ => show win0_5.index t (0 : Fin 2) * 1024 + 1 * r.val = r.val + 1024 * (t.val / 16); rw [e0]; omega
    | ⟨1, _⟩ => show win0_5.index t (1 : Fin 2) * 512 + 1 * jj.val = jj.val + 512 * (t.val % 16); rw [e1]; omega
  exact congrArg (argNegadj m c) hi

/-! ## The result window -/

/-- The result window's block at point t, read off any array: rows r + 1024·(t / 16). -/
theorem blk6 (c : Dev nD) (G : Buf (Elt Ideal) ((cfg0.win 6).arr.view.loc (c.tc : Thread nD τ))) (t : Fin cfg0.N)
    (r : Fin 1024) (d : Fin 128) :
    ((cfg0.win 6).blk t).view.read (Elt Ideal) G (ix2 r d) = G (ix2 (qrow t r) d) := by
  obtain ⟨-, -, -, -, -, -, ⟨e0, e1⟩⟩ := idx_facts t
  rw [View.read_apply]
  have hi : ((cfg0.win 6).blk t).view.emb (ix2 r d) = ix2 (qrow t r) d := by
    funext a; apply Fin.ext
    match a with
    | ⟨0, _⟩ => show win0_6.index t (0 : Fin 2) * 1024 + 1 * r.val = r.val + 1024 * (t.val / 16); rw [e0]; omega
    | ⟨1, _⟩ => show win0_6.index t (1 : Fin 2) * 128 + 1 * d.val = d.val; rw [e1]; omega
  exact congrArg G hi

/-- Every entry of the result array is in the block written back at the last key tile of its query tile. -/
theorem cover6 (c : Dev nD) : ∀ i : ((cfg0.win 6).arr.view.loc (c.tc : Thread nD τ)).2.ty.Idx,
    ∃ t : Fin cfg0.N, (cfg0.win 6).flush t = true ∧ i ∈ ((cfg0.win 6).blk t).view.set := by
  intro i
  have h0 : (i 0 : Nat) < 8192 := (i 0).isLt
  have h1 : (i 1 : Nat) < 128 := (i 1).isLt
  obtain ⟨t, ht⟩ : ∃ t : Fin cfg0.N, t.val = 16 * ((i 0 : Nat) / 1024) + 15 :=
    ⟨⟨16 * ((i 0 : Nat) / 1024) + 15, by rw [show cfg0.N = 128 from N_0]; omega⟩, rfl⟩
  obtain ⟨-, -, -, -, -, -, ⟨e0, e1⟩⟩ := idx_facts t
  refine ⟨t, (flush0_6 t).mpr (by omega), ?_⟩
  show i ∈ ((View.whole main_v6).slice (win0_6.rect t)).set
  rw [View.set_slice_whole, Rect.mem_set_unit]
  intro a
  match a with
  | ⟨0, _⟩ =>
    show win0_6.index t (0 : Fin 2) * 1024 ≤ (i 0 : Nat) ∧ (i 0 : Nat) < win0_6.index t (0 : Fin 2) * 1024 + 1024
    rw [e0]; omega
  | ⟨1, _⟩ =>
    show win0_6.index t (1 : Fin 2) * 128 ≤ (i 1 : Nat) ∧ (i 1 : Nat) < win0_6.index t (1 : Fin 2) * 128 + 128
    rw [e1]; omega

end Cert.KernelBlocks

end
-- ==== Proof.KI.Accum.lean ====
/-
  The accumulator after every grid point, entry by entry: after the point at query tile q and key tile k, row r and
  column d of the accumulator hold the partial output of query row r + 1024·q after the first k + 1 key tiles: the self
  term and those tiles' contributions. By induction on the point: the first key tile of a query tile starts from the
  self-term block; every later key tile adds its contribution to what the point before left, which belongs to the same
  query tile.
-/
import proofs.«117063_j8409545965928_1_alg».proof.Proof.KI.Pieces
import proofs.«117063_j8409545965928_1_alg».proof.Proof.KernelStep
import proofs.«117063_j8409545965928_1_alg».proof.Proof.KernelBlocks

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frm Cert.KernelBlocks Cert.Spec

variable (m : (ℓ : Loc nD τ sig) → Buf (Elt Ideal) ℓ) (c : Dev nD)

/-- The point before one that is not a query tile's first belongs to the same query tile, -/
theorem qrow_pred (n : ℕ) (h : n + 1 < cfg0.N) (hne : ¬(n + 1) % 16 = 0) (r : Fin 1024) :
    qrow ⟨n, Nat.lt_of_succ_lt h⟩ r = qrow ⟨n + 1, h⟩ r := by
  apply Fin.ext
  simp only [qrow]
  omega

/-- and is the key tile before. -/
theorem ktile_pred (n : ℕ) (h : n + 1 < cfg0.N) (hne : ¬(n + 1) % 16 = 0) :
    n % 16 + 1 = (ktile ⟨n + 1, h⟩).val := by
  simp only [ktile]
  omega

/-- THE ACCUMULATOR after point `n`, at entry (r, d): the partial output after the point's key tile. -/
theorem acc_eq : ∀ (n : ℕ) (h : n < cfg0.N) (r : Fin 1024) (d : Fin 128),
    (outsAt0 (F := Ideal) m c n h).2 (ix2 r d)
      = partialOut (argH1 m c) (argAdj m c) (argNegadj m c) (argW1 m c) (argW2 m c) (argWf m c) (qrow ⟨n, h⟩ r) d ((ktile ⟨n, h⟩).val + 1)
  | 0, h, r, d => by
    have e := outsAt0_A (F := Ideal) m c ⟨0, h⟩ rfl (show ¬(0 % 16 = 15) by omega)
    rw [show outsAt0 (F := Ideal) m c 0 h = outsAt0 (F := Ideal) m c (⟨0, h⟩ : Fin cfg0.N).val (⟨0, h⟩ : Fin cfg0.N).isLt from rfl, e]
    dsimp only
    rw [sout_A]
    exact Cert.KernelStep.step_first (argH1 m c) (argAdj m c) (argNegadj m c) (argW1 m c) (argW2 m c) (argWf m c) (qrow ⟨0, h⟩ r) (ktile ⟨0, h⟩) rfl
      (iblk m c 0 ⟨0, h⟩) (iblk m c 1 ⟨0, h⟩) (iblk m c 4 ⟨0, h⟩) (iblk m c 5 ⟨0, h⟩) (iblk m c 2 ⟨0, h⟩) (iblk m c 3 ⟨0, h⟩) r d
      (fun k => blk0 m c ⟨0, h⟩ r k) (fun jj k => blk1 m c ⟨0, h⟩ jj k) (fun jj => blk2 m c ⟨0, h⟩ jj d) (blk3 m c ⟨0, h⟩ r d) (fun jj => blk4 m c ⟨0, h⟩ r jj) (fun jj => blk5 m c ⟨0, h⟩ r jj)
  | n + 1, h, r, d => by
    by_cases h0 : (n + 1) % 16 = 0
    · have h1 : ¬(n + 1) % 16 = 15 := by omega
      have e := outsAt0_A (F := Ideal) m c ⟨n + 1, h⟩ h0 h1
      rw [show outsAt0 (F := Ideal) m c (n + 1) h = outsAt0 (F := Ideal) m c (⟨n + 1, h⟩ : Fin cfg0.N).val (⟨n + 1, h⟩ : Fin cfg0.N).isLt from rfl, e]
      dsimp only
      rw [sout_A]
      exact Cert.KernelStep.step_first (argH1 m c) (argAdj m c) (argNegadj m c) (argW1 m c) (argW2 m c) (argWf m c) (qrow ⟨n + 1, h⟩ r) (ktile ⟨n + 1, h⟩) h0
        (iblk m c 0 ⟨n + 1, h⟩) (iblk m c 1 ⟨n + 1, h⟩) (iblk m c 4 ⟨n + 1, h⟩) (iblk m c 5 ⟨n + 1, h⟩) (iblk m c 2 ⟨n + 1, h⟩) (iblk m c 3 ⟨n + 1, h⟩) r d
        (fun k => blk0 m c ⟨n + 1, h⟩ r k) (fun jj k => blk1 m c ⟨n + 1, h⟩ jj k) (fun jj => blk2 m c ⟨n + 1, h⟩ jj d) (blk3 m c ⟨n + 1, h⟩ r d) (fun jj => blk4 m c ⟨n + 1, h⟩ r jj) (fun jj => blk5 m c ⟨n + 1, h⟩ r jj)
    · have ih := acc_eq n (Nat.lt_of_succ_lt h) r d
      rw [qrow_pred n h h0 r, show (ktile ⟨n, Nat.lt_of_succ_lt h⟩).val + 1 = n % 16 + 1 from rfl, ktile_pred n h h0] at ih
      by_cases h1 : (n + 1) % 16 = 15
      · have e := outsAt0_C (F := Ideal) m c ⟨n + 1, h⟩ h0 h1
        rw [show outsAt0 (F := Ideal) m c (n + 1) h = outsAt0 (F := Ideal) m c (⟨n + 1, h⟩ : Fin cfg0.N).val (⟨n + 1, h⟩ : Fin cfg0.N).isLt from rfl, e]
        dsimp only
        rw [sout_C]
        exact Cert.KernelStep.step (argH1 m c) (argAdj m c) (argNegadj m c) (argW1 m c) (argW2 m c) (argWf m c) (qrow ⟨n + 1, h⟩ r) (ktile ⟨n + 1, h⟩)
          (iblk m c 0 ⟨n + 1, h⟩) (iblk m c 1 ⟨n + 1, h⟩) (iblk m c 4 ⟨n + 1, h⟩) (iblk m c 5 ⟨n + 1, h⟩) (iblk m c 2 ⟨n + 1, h⟩) (outsAt0 (F := Ideal) m c n (Nat.lt_of_succ_lt h)).2 r d
          (fun k => blk0 m c ⟨n + 1, h⟩ r k) (fun jj k => blk1 m c ⟨n + 1, h⟩ jj k) (fun jj => blk2 m c ⟨n + 1, h⟩ jj d) (fun jj => blk4 m c ⟨n + 1, h⟩ r jj) (fun jj => blk5 m c ⟨n + 1, h⟩ r jj) ih
      · have e := outsAt0_B (F := Ideal) m c ⟨n + 1, h⟩ h0 h1
        rw [show outsAt0 (F := Ideal) m c (n + 1) h = outsAt0 (F := Ideal) m c (⟨n + 1, h⟩ : Fin cfg0.N).val (⟨n + 1, h⟩ : Fin cfg0.N).isLt from rfl, e]
        dsimp only
        rw [sout_B]
        exact Cert.KernelStep.step (argH1 m c) (argAdj m c) (argNegadj m c) (argW1 m c) (argW2 m c) (argWf m c) (qrow ⟨n + 1, h⟩ r) (ktile ⟨n + 1, h⟩)
          (iblk m c 0 ⟨n + 1, h⟩) (iblk m c 1 ⟨n + 1, h⟩) (iblk m c 4 ⟨n + 1, h⟩) (iblk m c 5 ⟨n + 1, h⟩) (iblk m c 2 ⟨n + 1, h⟩) (outsAt0 (F := Ideal) m c n (Nat.lt_of_succ_lt h)).2 r d
          (fun k => blk0 m c ⟨n + 1, h⟩ r k) (fun jj k => blk1 m c ⟨n + 1, h⟩ jj k) (fun jj => blk2 m c ⟨n + 1, h⟩ jj d) (fun jj => blk4 m c ⟨n + 1, h⟩ r jj) (fun jj => blk5 m c ⟨n + 1, h⟩ r jj) ih

/-- At a last key tile the output block's buffer holds the same value as the accumulator: the whole output row. -/
theorem out_eq (t : Fin cfg0.N) (h1 : t.val % 16 = 15) (r : Fin 1024) (d : Fin 128) :
    (outsAt0 (F := Ideal) m c t.val t.isLt).1 (ix2 r d) = out (argH1 m c) (argAdj m c) (argNegadj m c) (argW1 m c) (argW2 m c) (argWf m c) (ix2 (qrow t r) d) := by
  have h0 : ¬t.val % 16 = 0 := by omega
  have ha := acc_eq m c t.val t.isLt r d
  rw [outsAt0_C (F := Ideal) m c t h0 h1] at ha ⊢
  dsimp only at ha ⊢
  rw [sout_C] at ha
  rw [out_C]
  refine ha.trans ?_
  show _ = partialOut (argH1 m c) (argAdj m c) (argNegadj m c) (argW1 m c) (argW2 m c) (argWf m c) (qrow t r) d 16
  have hk : (ktile ⟨t.val, t.isLt⟩).val + 1 = 16 := by simp only [ktile]; omega
  rw [hk]

end Cert.KernelIdeal.Val

end
-- ==== Proof.KI.Split.lean ====
/-
  How the arrays behind the fused kernel's windows are dealt to the windows at the region's entry. Six distinct arrays
  stand behind the seven windows: h3, h4, hf, adj, negadj and the result. hf is read through two windows (the key
  tile's rows, and the query tile's rows for the self term); its full share is split into its two halves, one per
  window. Every other window takes its array whole.
-/
import proofs.«117063_j8409545965928_1_alg».proof.Proof.KI.Frame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

variable (m : (ℓ : Loc nD τ sig) → Buf (Elt F) ℓ) (ρ : Dev nD → PrngReg)

/-- The distinct buffers behind the seven windows' arrays, listed: h3, h4, hf, adj, negadj, the result. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v1) ↦{fullShare} W main_v1) ∗ (((c.tc : Thread nD τ).loc main_v3) ↦{fullShare} W main_v3) ∗ (((c.tc : Thread nD τ).loc main_v5) ↦{fullShare} W main_v5) ∗ (((c.tc : Thread nD τ).loc main_arg1) ↦{fullShare} W main_arg1) ∗ (((c.tc : Thread nD τ).loc main_arg2) ↦{fullShare} W main_arg2) ∗ (((c.tc : Thread nD τ).loc main_v6) ↦{fullShare} W main_v6)) := by
  unfold Pipeline.arrBufs
  exact bigSep_eq_bigSepL_of_eq [main_v1, main_v3, main_v5, main_arg1, main_arg2, main_v6] (by decide) (by decide) _

/-- The buffers behind the windows' arrays, each whole at the region-entry contents, give every window its array at
    its share: hf's full share as its left half (the key rows' window) and its right half (the self term's). -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have e0 : (((cfg0.win 0).arr.view.loc (c.tc : Thread nD τ)) ↦[(cfg0.win 0).arr.view.set]{(dats m 0 c).share 0} (dats m 0 c).arrAt 0 0 : sProp 𝕄)
      = (((c.tc : Thread nD τ).loc main_v1) ↦{fullShare} V m c main_v1) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c.tc : Thread nD τ).loc main_v3) ↦{fullShare} V m c main_v3) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c.tc : Thread nD τ).loc main_v5) ↦{fullShare.left} V m c main_v5) := by
    rw [(arr_whole0 2).set_eq_univ]; rfl
  have e3 : (((cfg0.win 3).arr.view.loc (c.tc : Thread nD τ)) ↦[(cfg0.win 3).arr.view.set]{(dats m 0 c).share 3} (dats m 0 c).arrAt 3 0 : sProp 𝕄)
      = (((c.tc : Thread nD τ).loc main_v5) ↦{fullShare.right} V m c main_v5) := by
    rw [(arr_whole0 3).set_eq_univ]; rfl
  have e4 : (((cfg0.win 4).arr.view.loc (c.tc : Thread nD τ)) ↦[(cfg0.win 4).arr.view.set]{(dats m 0 c).share 4} (dats m 0 c).arrAt 4 0 : sProp 𝕄)
      = (((c.tc : Thread nD τ).loc main_arg1) ↦{fullShare} V m c main_arg1) := by
    rw [(arr_whole0 4).set_eq_univ]; rfl
  have e5 : (((cfg0.win 5).arr.view.loc (c.tc : Thread nD τ)) ↦[(cfg0.win 5).arr.view.set]{(dats m 0 c).share 5} (dats m 0 c).arrAt 5 0 : sProp 𝕄)
      = (((c.tc : Thread nD τ).loc main_arg2) ↦{fullShare} V m c main_arg2) := by
    rw [(arr_whole0 5).set_eq_univ]; rfl
  have e6 : (((cfg0.win 6).arr.view.loc (c.tc : Thread nD τ)) ↦[(cfg0.win 6).arr.view.set]{(dats m 0 c).share 6} (dats m 0 c).arrAt 6 0 : sProp 𝕄)
      = (((c.tc : Thread nD τ).loc main_v6) ↦{fullShare} V m c main_v6) := by
    rw [(arr_whole0 6).set_eq_univ]; rfl
  unfold Dat.arrays
  rw [arrBufs0_eq, bigSep_W0, e0, e1, e2, e3, e4, e5, e6]
  iintro ⟨H1, H3, H5, Ha1, Ha2, H6⟩
  ihave H5' := (pointsTo_share (PosShare.mem_left_op_right fullShare)).1 $$ H5
  icases H5' with ⟨H5l, H5r⟩
  isplitl [H1]; · iexact H1
  isplitl [H3]; · iexact H3
  isplitl [H5l]; · iexact H5l
  isplitl [H5r]; · iexact H5r
  isplitl [Ha1]; · iexact Ha1
  isplitl [Ha2]; · iexact Ha2
  iexact H6

end Cert.KernelIdeal.Frm

end
-- ==== Proof.KI.Launch.lean ====
/-
  The run of the program around the fused kernel's region. @main forms h3, h4, hf by host operations and enters the
  region; the pipeline visits the 128 grid points, the body obligation holding at each; at the end every window's
  array holds what the write-backs left (only the result array is written: one block per query tile, at its last key
  tile), and every other unscoped buffer, the arguments h1, W1, W2, Wf among them, is as the region found it.
-/
import proofs.«117063_j8409545965928_1_alg».proof.Proof.KI.Split

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

variable (m : (ℓ : Loc nD τ sig) → Buf (Elt F) ℓ) (ρ : Dev nD → PrngReg)

/-- What the launch hands the region (the scoped rest) is the invariant before the first point. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scoped rest back: the accumulator's named contents are forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest0_owns]
  iintro HS0
  isplitr; · iempintro
  iexists _; iexact HS0

set_option backward.isDefEq.respectTransparency.types false in
/-- Every weakly fair execution of @main on the TensorCores terminates, and every final state has every window's array
    at what the library computes from the proof data and every other unscoped buffer as the region found it. -/
theorem run_main : θ_run defs (onTc (τ := τ) (main (F := F))) (s₀ m ρ)
    (fun r => ∀ c : Dev nD, (∀ w, r.2.mem (((cfg0).spec w).arr.view.loc (c.tc : Thread nD τ)) = (dats m 0 c).arrAt w (cfg0).N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

end Cert.KernelIdeal.Frm

end
-- ==== Proof.KI.Claim.lean ====
/-
  The frame of the program around the fused kernel: it runs to the end, nothing faults, and its six argument arrays
  end as they began. adj and negadj are input windows' arrays, which the pipeline never writes; h1, W1, W2 and Wf are
  read by the host operations before the region only, and no window stages them.
-/
import proofs.«117063_j8409545965928_1_alg».proof.Proof.KI.Launch
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Facts₀ Cert.KernelIdeal.Facts

variable (m : (ℓ : Loc nD τ sig) → Buf (Elt F) ℓ) (ρ : Dev nD → PrngReg)

/-- The run, with the result array named and the six arguments read back to their launch contents. -/
theorem run_args : θ_run defs (onTc (τ := τ) (main (F := F))) ⟨m, fun _ => 0, ρ⟩ (fun r => ∀ c : Dev nD,
      r.2.mem ((c.tc : Thread nD τ).loc main_v6) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
    ((h c).2 main_arg0 (by decide)).trans (V_main_arg0 m c),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).2 main_arg3 (by decide)).trans (V_main_arg3 m c),
    ((h c).2 main_arg4 (by decide)).trans (V_main_arg4 m c),
    ((h c).2 main_arg5 (by decide)).trans (V_main_arg5 m c)⟩) (run_main m ρ)

/-- THE FRAME: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_args m ρ)

end Cert.KernelIdeal.Frm

end
-- ==== Proof.KI.Final.lean ====
/-
  The result array of the fused kernel. The output window is written back once per query tile, at its last key tile,
  with the accumulator's final contents: the whole output rows of that query tile. The eight blocks tile the result
  array, so it ends holding the specification's output, entry by entry.
-/
import proofs.«117063_j8409545965928_1_alg».proof.Proof.KI.Accum
import proofs.«117063_j8409545965928_1_alg».proof.Proof.KI.Claim

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm Cert.KernelBlocks Cert.Spec

variable (m : (ℓ : Loc nD τ sig) → Buf (Elt Ideal) ℓ) (ρ : Dev nD → PrngReg) (c : Dev nD)

/-- The specification's output of the launch contents of the six arguments, as contents of the result array. -/
abbrev result : Buf (Elt Ideal) ((cfg0.win 6).arr.view.loc (c.tc : Thread nD τ)) :=
  out (argH1 m c) (argAdj m c) (argNegadj m c) (argW1 m c) (argW2 m c) (argWf m c)

/-- Each write-back writes the specification's rows of its query tile. -/
theorem flushed_eq (t : Fin cfg0.N) (hf : (cfg0.win 6).flush t = true) :
    (dats (F := Ideal) m 0 c).flushed 6 t = ((cfg0.win 6).blk t).view.read (Elt Ideal) (result m c) := by
  have h15 : t.val % 16 = 15 := (flush0_6 t).mp hf
  show (cfg0.win 6).cut (grid0.coords t) ((dats (F := Ideal) m 0 c).after 6 t) = _
  rw [after0_6]
  funext y
  obtain ⟨r, d, rfl⟩ : ∃ (r : Fin 1024) (d : Fin 128), y = ix2 r d := ⟨y 0, y 1, eq_ix2 y⟩
  exact (out_eq m c t h15 r d).trans (blk6 c (result m c) t r d).symm

/-- The result array ends holding the specification's output. -/
theorem final : (dats (F := Ideal) m 0 c).arrAt 6 cfg0.N = result m c :=
  (dats (F := Ideal) m 0 c).arrAt_eq_of_cover 6 (result m c) (flushed_eq m c) (cover6 c)

/-- The kernel's run, read: the result array at the specification's output, the arguments unchanged. -/
theorem run : θ_run defs (onTc (τ := τ) (main (F := Ideal))) ⟨m, fun _ => 0, ρ⟩ (fun r => ∀ c : Dev nD,
      r.2.mem ((c.tc : Thread nD τ).loc main_v6) = out (argH1 m c) (argAdj m c) (argNegadj m c) (argW1 m c) (argW2 m c) (argWf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final m c), (h c).2⟩) (run_args (F := Ideal) m ρ)

end Cert.KernelIdeal.Val

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.RefLaw.lean ====
/-
  The laws of real arithmetic the two arrangements of the aggregation differ by, stated on the extended reals
  for entries that are real numbers.

  The reference adds the self term and the adjacency-weighted sum, then subtracts the negative-adjacency-weighted
  sum: (h + ∑ a·v) − ∑ b·v. The specification sums the combined weight: h + ∑ (a − b)·v. On the extended reals
  (a − b)·v = a·v − b·v and the splitting of a sum of differences fail at the infinities; for real entries both
  sides are the coercion of the same real number. Sums, products, differences and the logistic function of
  real numbers are real numbers, so realness of the inputs carries through every intermediate value.
-/
import Idealize.ShloMosaic.PureOps.Ideal
import proofs.«117063_j8409545965928_1_alg».proof.Proof.Spec
import proofs.«117063_j8409545965928_1_alg».proof.Proof.LibBlockSum

noncomputable section

namespace Cert.RefLaw

open Idealize.ShloMosaic

/-- An extended real that is a real number (neither infinity). -/
def IsReal (x : EReal) : Prop := ∃ r : ℝ, x = (r : EReal)

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function of a real number is a real number. -/
theorem IsReal.logistic {x : EReal} (hx : IsReal x) : IsReal (Ideal.logistic x) := by
  obtain ⟨a, rfl⟩ := hx; exact ⟨_, Ideal.logistic_coe a⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real entries, adding one weighted sum and subtracting another is adding the sum weighted by the
    difference of the weights. -/
theorem add_sum_sub_sum {ι : Type*} [Fintype ι] (h : EReal) (A B v : ι → EReal) (hh : IsReal h)
    (hA : ∀ j, IsReal (A j)) (hB : ∀ j, IsReal (B j)) (hv : ∀ j, IsReal (v j)) :
    (h + ∑ j, A j * v j) - ∑ j, B j * v j = h + ∑ j, (A j - B j) * v j := by
  obtain ⟨h', rfl⟩ := hh
  choose A' hA' using hA
  choose B' hB' using hB
  choose v' hv' using hv
  obtain rfl : A = fun j => (A' j : EReal) := funext hA'
  obtain rfl : B = fun j => (B' j : EReal) := funext hB'
  obtain rfl : v = fun j => (v' j : EReal) := funext hv'
  simp only [← EReal.coe_mul, ← EReal.coe_sub, ← coe_sum, ← EReal.coe_add]
  congr 1
  rw [Finset.sum_congr rfl (fun j _ => sub_mul (A' j) (B' j) (v' j)), Finset.sum_sub_distrib]
  ring

/-- The 8192 keys regrouped into 16 consecutive blocks of 512: no finiteness is needed. -/
theorem sum_keys {M : Type*} [AddCommMonoid M] (f : Fin 8192 → M) :
    ∑ j, f j = ∑ kb : Fin 16, ∑ jj : Fin 512, f (Cert.Spec.key kb jj) := by
  have h := Cert.BlockSum.sum_blocks 16 512 (fun k : Fin (16 * 512) => f ⟨k.val, k.isLt⟩)
  exact h

end Cert.RefLaw

end
-- ==== Proof.RefSide.lean ====
/-
  The reference program computes the specification's result, entry by entry.

  Reading the reference's operations at an index: its three projections are the specification's h1·Wᵀ entries
  (a transposed weight read at (k, a) is the weight at (a, k)), its score matrix is the specification's score, and
  its gate 1 / (1 + exp(−(−s))) is the logistic function of 0 − s: on the extended reals 0 − s = −s with no
  finiteness needed. The two weighted sums over all 8192 keys are then joined into the sum of the combined
  weight, which is where realness of every entry is used, and regrouped into the 16 blocks of 512 keys.
-/
import proofs.«117063_j8409545965928_1_alg».proof.Proof.Spec
import proofs.«117063_j8409545965928_1_alg».proof.Proof.RefLaw
import proofs.«117063_j8409545965928_1_alg».proof.Proof.Gen.ReferenceIdeal.Read
import Idealize.ShloMosaic.Lib.IdealHost

noncomputable section

namespace Cert.RefSide

open Idealize.ShloMosaic Idealize.ShloMosaic.ValueIdx Cert.ReferenceIdeal.Read Cert.Spec Cert.RefLaw

/-! ## The projections -/

/-- The reference's h1·W1ᵀ at (p, k). -/
theorem v1_entry (x0 : Mat 8192 128) (x3 : Mat 128 128) (p : Fin 8192) (k : Fin 128) :
    val_main_v1 (F := Ideal) x0 x3 (ix2 p k) = proj x0 x3 p k := by
  rw [val_main_v1_apply]
  refine Finset.sum_congr rfl fun a _ => ?_
  rw [val_main_v0_apply]
  have e1 : lidx_main_v1 (ix2 p k) a = ix2 p a :=
    funext fun b => Fin.ext (by match b with | ⟨0, _⟩ => rfl | ⟨1, _⟩ => rfl)
  have e2 : idx_main_v0 (ridx_main_v1 (ix2 p k) a) = ix2 k a :=
    funext fun b => Fin.ext (by match b with | ⟨0, _⟩ => rfl | ⟨1, _⟩ => rfl)
  rw [e1, e2]

/-- The reference's h1·W2ᵀ at (j, k). -/
theorem v3_entry (x0 : Mat 8192 128) (x4 : Mat 128 128) (j : Fin 8192) (k : Fin 128) :
    val_main_v3 (F := Ideal) x0 x4 (ix2 j k) = proj x0 x4 j k := by
  rw [val_main_v3_apply]
  refine Finset.sum_congr rfl fun a _ => ?_
  rw [val_main_v2_apply]
  have e1 : lidx_main_v3 (ix2 j k) a = ix2 j a :=
    funext fun b => Fin.ext (by match b with | ⟨0, _⟩ => rfl | ⟨1, _⟩ => rfl)
  have e2 : idx_main_v2 (ridx_main_v3 (ix2 j k) a) = ix2 k a :=
    funext fun b => Fin.ext (by match b with | ⟨0, _⟩ => rfl | ⟨1, _⟩ => rfl)
  rw [e1, e2]

/-- The reference's h1·Wfᵀ at (j, d). -/
theorem v5_entry (x0 : Mat 8192 128) (x5 : Mat 128 128) (j : Fin 8192) (d : Fin 128) :
    val_main_v5 (F := Ideal) x0 x5 (ix2 j d) = proj x0 x5 j d := by
  rw [val_main_v5_apply]
  refine Finset.sum_congr rfl fun a _ => ?_
  rw [val_main_v4_apply]
  have e1 : lidx_main_v5 (ix2 j d) a = ix2 j a :=
    funext fun b => Fin.ext (by match b with | ⟨0, _⟩ => rfl | ⟨1, _⟩ => rfl)
  have e2 : idx_main_v4 (ridx_main_v5 (ix2 j d) a) = ix2 d a :=
    funext fun b => Fin.ext (by match b with | ⟨0, _⟩ => rfl | ⟨1, _⟩ => rfl)
  rw [e1, e2]

/-! ## The score and the gate -/

/-- The reference's score matrix at (p, j). -/
theorem v7_entry (x0 : Mat 8192 128) (x3 x4 : Mat 128 128) (p j : Fin 8192) :
    val_main_v7 (F := Ideal) x0 x3 x4 (ix2 p j) = score x0 x3 x4 p j := by
  rw [val_main_v7_apply]
  refine Finset.sum_congr rfl fun k _ => ?_
  rw [val_main_v6_apply]
  have e1 : lidx_main_v7 (ix2 p j) k = ix2 p k :=
    funext fun b => Fin.ext (by match b with | ⟨0, _⟩ => rfl | ⟨1, _⟩ => rfl)
  have e2 : idx_main_v6 (ridx_main_v7 (ix2 p j) k) = ix2 j k :=
    funext fun b => Fin.ext (by match b with | ⟨0, _⟩ => rfl | ⟨1, _⟩ => rfl)
  rw [e1, e2, v1_entry, v3_entry]

/-- The reference's gate at (p, j): 1 / (1 + exp(−(−s))) is the logistic function of 0 − s. -/
theorem v14_entry (x0 : Mat 8192 128) (x3 x4 : Mat 128 128) (p j : Fin 8192) :
    val_main_v14 (F := Ideal) x0 x3 x4 (ix2 p j) = gate x0 x3 x4 p j := by
  rw [val_main_v14_apply, val_main_v13_apply, val_main_cst_0_apply, val_main_v12_apply, val_main_v11_apply,
    val_main_cst_apply, val_main_v10_apply, val_main_v9_apply, val_main_v8_apply, v7_entry]
  show Ideal.div (Ideal.ofBits .f32 0x3F800000#32)
      (Ideal.ofBits .f32 0x3F800000#32 + Ideal.exp (-(-(score x0 x3 x4 p j)))) = _
  rw [Ideal.ofBits_one_f32, gate, Ideal.logistic, zero_sub]

/-- The reference's adjacency weight at (p, j). -/
theorem v15_entry (x0 : Mat 8192 128) (x1 : Mat 8192 8192) (x3 x4 : Mat 128 128) (p j : Fin 8192) :
    val_main_v15 (F := Ideal) x0 x1 x3 x4 (ix2 p j) = gate x0 x3 x4 p j * x1 (ix2 p j) := by
  rw [val_main_v15_apply, v14_entry]
  rfl

/-- The reference's negative-adjacency weight at (p, j). -/
theorem v18_entry (x0 : Mat 8192 128) (x2 : Mat 8192 8192) (x3 x4 : Mat 128 128) (p j : Fin 8192) :
    val_main_v18 (F := Ideal) x0 x2 x3 x4 (ix2 p j) = (one - gate x0 x3 x4 p j) * x2 (ix2 p j) := by
  rw [val_main_v18_apply, val_main_v17_apply, val_main_v16_apply, val_main_cst_1_apply, v14_entry]
  rfl

/-! ## The two weighted sums -/

/-- The adjacency-weighted sum at (p, d). -/
theorem v19_entry (x0 : Mat 8192 128) (x1 : Mat 8192 8192) (x3 x4 x5 : Mat 128 128) (p : Fin 8192) (d : Fin 128) :
    val_main_v19 (F := Ideal) x0 x1 x3 x4 x5 (ix2 p d)
      = ∑ j : Fin 8192, (gate x0 x3 x4 p j * x1 (ix2 p j)) * proj x0 x5 j d := by
  rw [val_main_v19_apply]
  refine Finset.sum_congr rfl fun j _ => ?_
  have e1 : lidx_main_v19 (ix2 p d) j = ix2 p j :=
    funext fun b => Fin.ext (by match b with | ⟨0, _⟩ => rfl | ⟨1, _⟩ => rfl)
  have e2 : ridx_main_v19 (ix2 p d) j = ix2 j d :=
    funext fun b => Fin.ext (by match b with | ⟨0, _⟩ => rfl | ⟨1, _⟩ => rfl)
  rw [e1, e2, v15_entry, v5_entry]

/-- The negative-adjacency-weighted sum at (p, d). -/
theorem v21_entry (x0 : Mat 8192 128) (x2 : Mat 8192 8192) (x3 x4 x5 : Mat 128 128) (p : Fin 8192) (d : Fin 128) :
    val_main_v21 (F := Ideal) x0 x2 x3 x4 x5 (ix2 p d)
      = ∑ j : Fin 8192, ((one - gate x0 x3 x4 p j) * x2 (ix2 p j)) * proj x0 x5 j d := by
  rw [val_main_v21_apply]
  refine Finset.sum_congr rfl fun j _ => ?_
  have e1 : lidx_main_v21 (ix2 p d) j = ix2 p j :=
    funext fun b => Fin.ext (by match b with | ⟨0, _⟩ => rfl | ⟨1, _⟩ => rfl)
  have e2 : ridx_main_v21 (ix2 p d) j = ix2 j d :=
    funext fun b => Fin.ext (by match b with | ⟨0, _⟩ => rfl | ⟨1, _⟩ => rfl)
  rw [e1, e2, v18_entry, v5_entry]

/-! ## Realness of the intermediate values -/

/-- A projection of real arrays is real: a finite sum of products of reals. -/
theorem isReal_proj {x0 : Mat 8192 128} {W : Mat 128 128} (h0 : AllReal x0) (hW : AllReal W)
    (p : Fin 8192) (k : Fin 128) : IsReal (proj x0 W p k) :=
  IsReal.sum _ _ fun a _ => IsReal.mul (h0 (ix2 p a)) (hW (ix2 k a))

/-- The score of real arrays is real. -/
theorem isReal_score {x0 : Mat 8192 128} {x3 x4 : Mat 128 128} (h0 : AllReal x0) (h3 : AllReal x3) (h4 : AllReal x4)
    (p j : Fin 8192) : IsReal (score x0 x3 x4 p j) :=
  IsReal.sum _ _ fun k _ => IsReal.mul (isReal_proj h0 h3 p k) (isReal_proj h0 h4 j k)

/-- The gate of real arrays is real. -/
theorem isReal_gate {x0 : Mat 8192 128} {x3 x4 : Mat 128 128} (h0 : AllReal x0) (h3 : AllReal x3) (h4 : AllReal x4)
    (p j : Fin 8192) : IsReal (gate x0 x3 x4 p j) :=
  IsReal.logistic (IsReal.sub isReal_zero (isReal_score h0 h3 h4 p j))

/-- The float word for one is the real number one. -/
theorem isReal_one_word : IsReal one := by
  rw [one, Ideal.ofBits_one_f32]; exact isReal_one

/-! ## The reference is the specification -/

/-- On arrays of real numbers the reference's result is the specification's. -/
theorem ref_eq (x0 : Mat 8192 128) (x1 x2 : Mat 8192 8192) (x3 x4 x5 : Mat 128 128)
    (h0 : AllReal x0) (h1 : AllReal x1) (h2 : AllReal x2) (h3 : AllReal x3) (h4 : AllReal x4) (h5 : AllReal x5) :
    val_main_v22 (F := Ideal) x0 x1 x2 x3 x4 x5 = out x0 x1 x2 x3 x4 x5 := by
  funext i
  obtain ⟨p, d, rfl⟩ : ∃ p d, i = ix2 p d := ⟨i 0, i 1, eq_ix2 i⟩
  rw [out_apply, val_main_v22_apply, val_main_v20_apply, v19_entry, v21_entry, v5_entry]
  refine (add_sum_sub_sum (proj x0 x5 p d) (fun j => gate x0 x3 x4 p j * x1 (ix2 p j))
    (fun j => (one - gate x0 x3 x4 p j) * x2 (ix2 p j)) (fun j => proj x0 x5 j d)
    (isReal_proj h0 h5 p d)
    (fun j => IsReal.mul (isReal_gate h0 h3 h4 p j) (h1 (ix2 p j)))
    (fun j => IsReal.mul (IsReal.sub isReal_one_word (isReal_gate h0 h3 h4 p j)) (h2 (ix2 p j)))
    (fun j => isReal_proj h0 h5 j d)).trans ?_
  rw [sum_keys]
  rfl

end Cert.RefSide

end
-- ==== Proof.Finite.lean ====
/-
  From the finiteness predicate to "every entry is a real number".

  The predicate takes, for each of the six arrays, the absolute value of every entry, compares it with the
  float word of +infinity by "less than", and takes the conjunction over the whole array; the six answers are
  and-ed. On the extended reals |x| = max x (-x), so |x| < +infinity holds exactly when x is neither
  infinity: x is a real number.
-/
import proofs.«117063_j8409545965928_1_alg».proof.Proof.Spec
import proofs.«117063_j8409545965928_1_alg».proof.Pre_finite_inputs
import proofs.«117063_j8409545965928_1_alg».proof.Proof.Gen.Pre_finite_inputs
import Idealize.ShloMosaic.Lib.ReduceAll
import Idealize.ShloMosaic.Lib.IdealHost

noncomputable section

namespace Cert.Finite

open Idealize.ShloMosaic Idealize.ShloMosaic.ValueIdx Cert.Pre_finite_inputs

/-- The float word 0x7F800000 is +infinity. -/
theorem inf_word : Ideal.ofBits .f32 0x7F800000#32 = (⊤ : EReal) := by
  simp [Ideal.ofBits, Ideal.ieee]

/-- An extended real whose absolute value is below +infinity is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

instance : Subsingleton S_.Idx := ⟨fun a b => funext fun d => d.elim0⟩

/-- One array's test, read back: if the conjunction over the whole array of "|x| < +infinity" is true,
    every entry is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    Cert.Spec.AllReal x := by
  intro i
  have hi := Host.reduce_andi_all _ _ hr hu ix0 e i
  rw [cmpf_apply, broadcastInDim_scalar_apply] at hi
  exact real_of_abs_lt (x i) hi

/-- The finiteness predicate, read back: all six arrays hold real numbers only. -/
theorem allReal_of_pre [Cert.Pre_finite_inputs.Facts]
    (x0 : Cert.Spec.Mat 8192 128) (x1 x2 : Cert.Spec.Mat 8192 8192) (x3 x4 x5 : Cert.Spec.Mat 128 128)
    (h : Cert.Pre_finite_inputs.fn (F := Ideal) x0 x1 x2 x3 x4 x5 = fun _ => 1#1) :
    Cert.Spec.AllReal x0 ∧ Cert.Spec.AllReal x1 ∧ Cert.Spec.AllReal x2 ∧ Cert.Spec.AllReal x3 ∧
      Cert.Spec.AllReal x4 ∧ Cert.Spec.AllReal x5 := by
  have h' := congrFun h ix0
  dsimp only [Cert.Pre_finite_inputs.fn, Cert.Pre_finite_inputs.fn_part1] at h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨allReal_of_all x0 _ _ _ e0, allReal_of_all x1 _ _ _ e1, allReal_of_all x2 _ _ _ e2,
    allReal_of_all x3 _ _ _ e3, allReal_of_all x4 _ _ _ e4, allReal_of_all x5 _ _ _ e5⟩

end Cert.Finite

end
-- ==== Proof.lean ====
/-
  The five claims about the fused sigmoid-gated aggregation kernel, assembled.

  Both printed kernel programs (at the word level and at the extended reals) run to the end without a fault and leave
  their six arguments unchanged: the pipeline's run over the 8 × 16 grid, the accumulator carried from key tile to key
  tile (Proof/K, Proof/KI). The reference is a straight line of host operations. The idealization rewrote nothing, so
  it preserves the kernel trivially. For the equality of results: at the extended reals the kernel's result array holds,
  entry (p, d), the self term hf(p, d) plus the sixteen key tiles' contributions ∑ w(p, j)·hf(j, d) added tile after tile
  (Proof/Spec, Proof/KI/Final: the same expression the body computes, so no finiteness is needed there), and the
  reference's (hf + (g∘adj)·hf) − ((1−g)∘negadj)·hf equals that when every input is finite: all intermediates are then
  real numbers, where a difference of sums is the sum of differences and 8192 keys regroup into sixteen tiles of 512
  (Proof/RefLaw, Proof/RefSide). The precondition gives the finiteness (Proof/Finite).
-/
import proofs.«117063_j8409545965928_1_alg».proof.Defs
import proofs.«117063_j8409545965928_1_alg».proof.Proof.Gen.Kernel
import proofs.«117063_j8409545965928_1_alg».proof.Proof.Gen.KernelIdeal
import proofs.«117063_j8409545965928_1_alg».proof.Proof.Gen.ReferenceIdeal
import proofs.«117063_j8409545965928_1_alg».proof.Proof.Gen.ReferenceIdeal.Run
import proofs.«117063_j8409545965928_1_alg».proof.Proof.Gen.ReferenceIdeal.Read
import proofs.«117063_j8409545965928_1_alg».proof.Proof.Gen.Pre_finite_inputs
import proofs.«117063_j8409545965928_1_alg».proof.Proof.K.Claim
import proofs.«117063_j8409545965928_1_alg».proof.Proof.KI.Final
import proofs.«117063_j8409545965928_1_alg».proof.Proof.RefSide
import proofs.«117063_j8409545965928_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's output of the (agreeing, finite) arguments. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5⟩ := Cert.Finite.allReal_of_pre _ _ _ _ _ _ (hpre c)
  rw [Cert.ReferenceIdeal.Read.val_main_v22_eq, (hagree c).1, (hagree c).2.1, (hagree c).2.2.1, (hagree c).2.2.2.1,
    (hagree c).2.2.2.2.1, (hagree c).2.2.2.2.2]
  exact Cert.RefSide.ref_eq _ _ _ _ _ _ f0 f1 f2 f3 f4 f5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
